-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v48)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v48) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v68) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_

variable [Facts]

def fn_part2 {F : FTy → Type} [FloatOps F] (main_arg8 : FVec F S128x64 .f32) (main_arg9 : FVec F S128x64 .f32) (main_arg10 : FVec F S64 .f32) (main_v33 : IVec S_ 1) : IVec S_ 1 :=
  let main_v34 : FVec F S128x64 .f32 := Host.absf main_arg8
  let main_cst_12 : FVec F S_ .f32 := constant S_ .f32 0x7F800000#32
  let main_v35 : FVec F S128x64 .f32 := broadcastInDim S128x64 ![] bcast_S_S128x64 main_cst_12
  let main_v36 : IVec S128x64 1 := cmpf .olt main_v34 main_v35
  let main_c_13 : IVec S_ 1 := constantI S_ 1 1#1
  let main_v37 : IVec S_ 1 := (fun x v => Host.reduce IntOp.andi x v reducesTo_S128x64_S_d0_1 h_S_) main_v36 main_c_13
  let main_v38 : IVec S_ 1 := andi main_v33 main_v37
  let main_v39 : FVec F S128x64 .f32 := Host.absf main_arg9
  let main_cst_14 : FVec F S_ .f32 := constant S_ .f32 0x7F800000#32
  let main_v40 : FVec F S128x64 .f32 := broadcastInDim S128x64 ![] bcast_S_S128x64 main_cst_14
  let main_v41 : IVec S128x64 1 := cmpf .olt main_v39 main_v40
  let main_c_15 : IVec S_ 1 := constantI S_ 1 1#1
  let main_v42 : IVec S_ 1 := (fun x v => Host.reduce IntOp.andi x v reducesTo_S128x64_S_d0_1 h_S_) main_v41 main_c_15
  let main_v43 : IVec S_ 1 := andi main_v38 main_v42
  let main_v44 : FVec F S64 .f32 := Host.absf main_arg10
  let main_cst_16 : FVec F S_ .f32 := constant S_ .f32 0x7F800000#32
  let main_v45 : FVec F S64 .f32 := broadcastInDim S64 ![] bcast_S_S64 main_cst_16
  let main_v46 : IVec S64 1 := cmpf .olt main_v44 main_v45
  let main_c_17 : IVec S_ 1 := constantI S_ 1 1#1
  let main_v47 : IVec S_ 1 := (fun x v => Host.reduce IntOp.andi x v reducesTo_S64_S_d0 h_S_) main_v46 main_c_17
  let main_v48 : IVec S_ 1 := andi main_v43 main_v47
  main_v48

def fn_part1 {F : FTy → Type} [FloatOps F] (main_arg5 : FVec F S128x128 .f32) (main_arg6 : FVec F S128x128 .f32) (main_arg7 : FVec F S128 .f32) (main_arg8 : FVec F S128x64 .f32) (main_arg9 : FVec F S128x64 .f32) (main_arg10 : FVec F S64 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x128 .f32 := Host.absf main_arg5
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128x128 .f32 := Host.absf main_arg6
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S128 .f32 := Host.absf main_arg7
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg8 main_arg9 main_arg10 main_v33

def fn {F : FTy → Type} [FloatOps F] (main_arg0 : FVec F S100000x128 .f32) (main_arg1 : IVec S2x1600000 32) (main_arg2 : FVec F S128x128 .f32) (main_arg3 : FVec F S128x128 .f32) (main_arg4 : FVec F S128 .f32) (main_arg5 : FVec F S128x128 .f32) (main_arg6 : FVec F S128x128 .f32) (main_arg7 : FVec F S128 .f32) (main_arg8 : FVec F S128x64 .f32) (main_arg9 : FVec F S128x64 .f32) (main_arg10 : FVec F S64 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128x128 .f32 := Host.absf main_arg3
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg4
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg5 main_arg6 main_arg7 main_arg8 main_arg9 main_arg10 main_v13 main_v16
-- ==== Kernel.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S1x1600000 : Shape := ⟨2, ![1, 1600000]⟩
abbrev S1600000 : Shape := ⟨1, ![1600000]⟩
abbrev S_ : Shape := ⟨0, ![]⟩
abbrev S100000 : Shape := ⟨1, ![100000]⟩
abbrev S1600000x1 : Shape := ⟨2, ![1600000, 1]⟩
abbrev S100000x1 : Shape := ⟨2, ![100000, 1]⟩
abbrev S1600000x128 : Shape := ⟨2, ![1600000, 128]⟩
abbrev S1x128 : Shape := ⟨2, ![1, 128]⟩
abbrev S2000x128 : Shape := ⟨2, ![2000, 128]⟩
abbrev S2000x1 : Shape := ⟨2, ![2000, 1]⟩
abbrev S1x64 : Shape := ⟨2, ![1, 64]⟩
abbrev S100000x64 : Shape := ⟨2, ![100000, 64]⟩
abbrev S2000x64 : Shape := ⟨2, ![2000, 64]⟩

abbrev nBuf : Space → Nat
  | .hbm => 73
  | .vmem => 33
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S128x128, .f32⟩
  | .hbm, ⟨3, _⟩ => ⟨S128x128, .f32⟩
  | .hbm, ⟨4, _⟩ => ⟨S128, .f32⟩
  | .hbm, ⟨5, _⟩ => ⟨S128x128, .f32⟩
  | .hbm, ⟨6, _⟩ => ⟨S128x128, .f32⟩
  | .hbm, ⟨7, _⟩ => ⟨S128, .f32⟩
  | .hbm, ⟨8, _⟩ => ⟨S128x64, .f32⟩
  | .hbm, ⟨9, _⟩ => ⟨S128x64, .f32⟩
  | .hbm, ⟨10, _⟩ => ⟨S64, .f32⟩
  | .hbm, ⟨11, _⟩ => ⟨S1x1600000, .i32⟩
  | .hbm, ⟨12, _⟩ => ⟨S1600000, .i32⟩
  | .hbm, ⟨13, _⟩ => ⟨S1x1600000, .i32⟩
  | .hbm, ⟨14, _⟩ => ⟨S1600000, .i32⟩
  | .hbm, ⟨15, _⟩ => ⟨S_, .f32⟩
  | .hbm, ⟨16, _⟩ => ⟨S1600000, .f32⟩
  | .hbm, ⟨17, _⟩ => ⟨S_, .f32⟩
  | .hbm, ⟨18, _⟩ => ⟨S100000, .f32⟩
  | .hbm, ⟨19, _⟩ => ⟨S1600000x1, .i32⟩
  | .hbm, ⟨20, _⟩ => ⟨S100000, .f32⟩
  | .hbm, ⟨21, _⟩ => ⟨S_, .f32⟩
  | .hbm, ⟨22, _⟩ => ⟨S100000, .f32⟩
  | .hbm, ⟨23, _⟩ => ⟨S100000, .f32⟩
  | .hbm, ⟨24, _⟩ => ⟨S_, .f32⟩
  | .hbm, ⟨25, _⟩ => ⟨S100000, .f32⟩
  | .hbm, ⟨26, _⟩ => ⟨S100000, .f32⟩
  | .hbm, ⟨27, _⟩ => ⟨S100000x1, .f32⟩
  | .hbm, ⟨28, _⟩ => ⟨S_, .i32⟩
  | .hbm, ⟨29, _⟩ => ⟨S1600000, .i32⟩
  | .hbm, ⟨30, _⟩ => ⟨S1600000, .i1⟩
  | .hbm, ⟨31, _⟩ => ⟨S_, .i32⟩
  | .hbm, ⟨32, _⟩ => ⟨S1600000, .i32⟩
  | .hbm, ⟨33, _⟩ => ⟨S1600000, .i32⟩
  | .hbm, ⟨34, _⟩ => ⟨S1600000, .i32⟩
  | .hbm, ⟨35, _⟩ => ⟨S1600000x1, .i32⟩
  | .hbm, ⟨36, _⟩ => ⟨S1600000x128, .f32⟩
  | .hbm, ⟨37, _⟩ => ⟨S_, .f32⟩
  | .hbm, ⟨38, _⟩ => ⟨S100000x128, .f32⟩
  | .hbm, ⟨39, _⟩ => ⟨S1600000x1, .i32⟩
  | .hbm, ⟨40, _⟩ => ⟨S100000x128, .f32⟩
  | .hbm, ⟨41, _⟩ => ⟨S1x128, .f32⟩
  | .hbm, ⟨42, _⟩ => ⟨S100000x128, .f32⟩
  | .hbm, ⟨43, _⟩ => ⟨S_, .i32⟩
  | .hbm, ⟨44, _⟩ => ⟨S1600000, .i32⟩
  | .hbm, ⟨45, _⟩ => ⟨S1600000, .i1⟩
  | .hbm, ⟨46, _⟩ => ⟨S_, .i32⟩
  | .hbm, ⟨47, _⟩ => ⟨S1600000, .i32⟩
  | .hbm, ⟨48, _⟩ => ⟨S1600000, .i32⟩
  | .hbm, ⟨49, _⟩ => ⟨S1600000, .i32⟩
  | .hbm, ⟨50, _⟩ => ⟨S1600000x1, .i32⟩
  | .hbm, ⟨51, _⟩ => ⟨S1600000x128, .f32⟩
  | .hbm, ⟨52, _⟩ => ⟨S_, .f32⟩
  | .hbm, ⟨53, _⟩ => ⟨S100000x128, .f32⟩
  | .hbm, ⟨54, _⟩ => ⟨S1600000x1, .i32⟩
  | .hbm, ⟨55, _⟩ => ⟨S100000x128, .f32⟩
  | .hbm, ⟨56, _⟩ => ⟨S1x128, .f32⟩
  | .hbm, ⟨57, _⟩ => ⟨S100000x128, .f32⟩
  | .hbm, ⟨58, _⟩ => ⟨S_, .i32⟩
  | .hbm, ⟨59, _⟩ => ⟨S1600000, .i32⟩
  | .hbm, ⟨60, _⟩ => ⟨S1600000, .i1⟩
  | .hbm, ⟨61, _⟩ => ⟨S_, .i32⟩
  | .hbm, ⟨62, _⟩ => ⟨S1600000, .i32⟩
  | .hbm, ⟨63, _⟩ => ⟨S1600000, .i32⟩
  | .hbm, ⟨64, _⟩ => ⟨S1600000, .i32⟩
  | .hbm, ⟨65, _⟩ => ⟨S1600000x1, .i32⟩
  | .hbm, ⟨66, _⟩ => ⟨S1600000x128, .f32⟩
  | .hbm, ⟨67, _⟩ => ⟨S_, .f32⟩
  | .hbm, ⟨68, _⟩ => ⟨S100000x128, .f32⟩
  | .hbm, ⟨69, _⟩ => ⟨S1600000x1, .i32⟩
  | .hbm, ⟨70, _⟩ => ⟨S100000x128, .f32⟩
  | .hbm, ⟨71, _⟩ => ⟨S1x64, .f32⟩
  | .hbm, ⟨72, _⟩ => ⟨S100000x64, .f32⟩
  | .local _ .vmem, ⟨0, _⟩ => ⟨S2000x128, .f32⟩
  | .local _ .vmem, ⟨1, _⟩ => ⟨S2000x128, .f32⟩
  | .local _ .vmem, ⟨2, _⟩ => ⟨S2000x128, .f32⟩
  | .local _ .vmem, ⟨3, _⟩ => ⟨S2000x128, .f32⟩
  | .local _ .vmem, ⟨4, _⟩ => ⟨S2000x1, .f32⟩
  | .local _ .vmem, ⟨5, _⟩ => ⟨S2000x1, .f32⟩
  | .local _ .vmem, ⟨6, _⟩ => ⟨S128x128, .f32⟩
  | .local _ .vmem, ⟨7, _⟩ => ⟨S128x128, .f32⟩
  | .local _ .vmem, ⟨8, _⟩ => ⟨S1x128, .f32⟩
  | .local _ .vmem, ⟨9, _⟩ => ⟨S2000x128, .f32⟩
  | .local _ .vmem, ⟨10, _⟩ => ⟨S2000x128, .f32⟩
  | .local _ .vmem, ⟨11, _⟩ => ⟨S2000x128, .f32⟩
  | .local _ .vmem, ⟨12, _⟩ => ⟨S2000x128, .f32⟩
  | .local _ .vmem, ⟨13, _⟩ => ⟨S2000x128, .f32⟩
  | .local _ .vmem, ⟨14, _⟩ => ⟨S2000x128, .f32⟩
  | .local _ .vmem, ⟨15, _⟩ => ⟨S2000x1, .f32⟩
  | .local _ .vmem, ⟨16, _⟩ => ⟨S2000x1, .f32⟩
  | .local _ .vmem, ⟨17, _⟩ => ⟨S128x128, .f32⟩
  | .local _ .vmem, ⟨18, _⟩ => ⟨S128x128, .f32⟩
  | .local _ .vmem, ⟨19, _⟩ => ⟨S1x128, .f32⟩
  | .local _ .vmem, ⟨20, _⟩ => ⟨S2000x128, .f32⟩
  | .local _ .vmem, ⟨21, _⟩ => ⟨S2000x128, .f32⟩
  | .local _ .vmem, ⟨22, _⟩ => ⟨S2000x128, .f32⟩
  | .local _ .vmem, ⟨23, _⟩ => ⟨S2000x128, .f32⟩
  | .local _ .vmem, ⟨24, _⟩ => ⟨S2000x128, .f32⟩
  | .local _ .vmem, ⟨25, _⟩ => ⟨S2000x128, .f32⟩
  | .local _ .vmem, ⟨26, _⟩ => ⟨S2000x1, .f32⟩
  | .local _ .vmem, ⟨27, _⟩ => ⟨S2000x1, .f32⟩
  | .local _ .vmem, ⟨28, _⟩ => ⟨S128x64, .f32⟩
  | .local _ .vmem, ⟨29, _⟩ => ⟨S128x64, .f32⟩
  | .local _ .vmem, ⟨30, _⟩ => ⟨S1x64, .f32⟩
  | .local _ .vmem, ⟨31, _⟩ => ⟨S2000x64, .f32⟩
  | .local _ .vmem, ⟨32, _⟩ => ⟨S2000x64, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | _, _ => false

abbrev semScoped : Fin 0 → Bool
  | ⟨_, h⟩ => absurd h (Nat.not_lt_zero _)

abbrev dmaSemScoped : Fin 33 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | _ => false

abbrev sig : RefSig :=
  ofTc nBuf bufTy 0 33 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_cst : Ref sig .tc := ⟨.hbm, 15, rfl⟩
abbrev main_v4 : Ref sig .tc := ⟨.hbm, 16, rfl⟩
abbrev main_cst_0 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_cst_1 : Ref sig .tc := ⟨.hbm, 21, rfl⟩
abbrev main_v8 : Ref sig .tc := ⟨.hbm, 22, rfl⟩
abbrev main_v9 : Ref sig .tc := ⟨.hbm, 23, rfl⟩
abbrev main_cst_2 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_c : Ref sig .tc := ⟨.hbm, 28, rfl⟩
abbrev main_v13 : Ref sig .tc := ⟨.hbm, 29, rfl⟩
abbrev main_v14 : Ref sig .tc := ⟨.hbm, 30, rfl⟩
abbrev main_c_3 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_cst_4 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_c_5 : Ref sig .tc := ⟨.hbm, 43, rfl⟩
abbrev main_v25 : Ref sig .tc := ⟨.hbm, 44, rfl⟩
abbrev main_v26 : Ref sig .tc := ⟨.hbm, 45, rfl⟩
abbrev main_c_6 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_cst_7 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_c_8 : Ref sig .tc := ⟨.hbm, 58, rfl⟩
abbrev main_v37 : Ref sig .tc := ⟨.hbm, 59, rfl⟩
abbrev main_v38 : Ref sig .tc := ⟨.hbm, 60, rfl⟩
abbrev main_c_9 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_cst_10 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc1_stg0_0 : Ref sig .tc := ⟨.vmem, 11, rfl⟩
abbrev cc1_stg0_1 : Ref sig .tc := ⟨.vmem, 12, rfl⟩
abbrev cc1_stg1_0 : Ref sig .tc := ⟨.vmem, 13, rfl⟩
abbrev cc1_stg1_1 : Ref sig .tc := ⟨.vmem, 14, rfl⟩
abbrev cc1_stg2_0 : Ref sig .tc := ⟨.vmem, 15, rfl⟩
abbrev cc1_stg2_1 : Ref sig .tc := ⟨.vmem, 16, rfl⟩
abbrev cc1_stg3_0 : Ref sig .tc := ⟨.vmem, 17, rfl⟩
abbrev cc1_stg4_0 : Ref sig .tc := ⟨.vmem, 18, rfl⟩
abbrev cc1_stg5_0 : Ref sig .tc := ⟨.vmem, 19, rfl⟩
abbrev cc1_stg6_0 : Ref sig .tc := ⟨.vmem, 20, rfl⟩
abbrev cc1_stg6_1 : Ref sig .tc := ⟨.vmem, 21, rfl⟩
abbrev cc2_stg0_0 : Ref sig .tc := ⟨.vmem, 22, rfl⟩
abbrev cc2_stg0_1 : Ref sig .tc := ⟨.vmem, 23, rfl⟩
abbrev cc2_stg1_0 : Ref sig .tc := ⟨.vmem, 24, rfl⟩
abbrev cc2_stg1_1 : Ref sig .tc := ⟨.vmem, 25, rfl⟩
abbrev cc2_stg2_0 : Ref sig .tc := ⟨.vmem, 26, rfl⟩
abbrev cc2_stg2_1 : Ref sig .tc := ⟨.vmem, 27, rfl⟩
abbrev cc2_stg3_0 : Ref sig .tc := ⟨.vmem, 28, rfl⟩
abbrev cc2_stg4_0 : Ref sig .tc := ⟨.vmem, 29, rfl⟩
abbrev cc2_stg5_0 : Ref sig .tc := ⟨.vmem, 30, rfl⟩
abbrev cc2_stg6_0 : Ref sig .tc := ⟨.vmem, 31, rfl⟩
abbrev cc2_stg6_1 : Ref sig .tc := ⟨.vmem, 32, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10
abbrev cc1_sem0_0 : DmaSem sig := 11
abbrev cc1_sem0_1 : DmaSem sig := 12
abbrev cc1_sem1_0 : DmaSem sig := 13
abbrev cc1_sem1_1 : DmaSem sig := 14
abbrev cc1_sem2_0 : DmaSem sig := 15
abbrev cc1_sem2_1 : DmaSem sig := 16
abbrev cc1_sem3_0 : DmaSem sig := 17
abbrev cc1_sem4_0 : DmaSem sig := 18
abbrev cc1_sem5_0 : DmaSem sig := 19
abbrev cc1_sem6_0 : DmaSem sig := 20
abbrev cc1_sem6_1 : DmaSem sig := 21
abbrev cc2_sem0_0 : DmaSem sig := 22
abbrev cc2_sem0_1 : DmaSem sig := 23
abbrev cc2_sem1_0 : DmaSem sig := 24
abbrev cc2_sem1_1 : DmaSem sig := 25
abbrev cc2_sem2_0 : DmaSem sig := 26
abbrev cc2_sem2_1 : DmaSem sig := 27
abbrev cc2_sem3_0 : DmaSem sig := 28
abbrev cc2_sem4_0 : DmaSem sig := 29
abbrev cc2_sem5_0 : DmaSem sig := 30
abbrev cc2_sem6_0 : DmaSem sig := 31
abbrev cc2_sem6_1 : DmaSem sig := 32

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2000x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S2000x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev grid1 : Pipeline.Grid := ⟨1, ![50], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S2000x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S128x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S128x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S2000x128 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev grid2 : Pipeline.Grid := ⟨1, ![50], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S2000x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S2000x1 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 1 → Memref sig .tc .vmem S128x64 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S128x64 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S1x64 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 2 → Memref sig .tc .vmem S2000x64 .f32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  shapeCasts_S100000_S100000x1 : S100000.ShapeCasts S100000x1
  bcast_S_S100000x128 : S_.BroadcastsInDim S100000x128 (![] : Fin 0 → Fin S100000x128.rank)
  shapeCasts_S128_S1x128 : S128.ShapeCasts S1x128
  inb_S2000x128_S2000x128_0_0 : ∀ a, (![0, 0] : Fin 2 → Nat) a + S2000x128.size a ≤ S2000x128.size a
  h_S2000x128 : 0 < S2000x128.numel
  bitsLt_bf16_f32 : FTy.bits .bf16 < FTy.bits .f32
  shapeCasts_S2000x128_S2000x128 : S2000x128.ShapeCasts S2000x128
  inb_S2000x1_S2000x1_0_0 : ∀ a, (![0, 0] : Fin 2 → Nat) a + S2000x1.size a ≤ S2000x1.size a
  h_S2000x1 : 0 < S2000x1.numel
  shapeCasts_S2000x1_S2000x1 : S2000x1.ShapeCasts S2000x1
  broadcasts_S2000x1_S2000x128 : S2000x1.Broadcasts S2000x128
  inb_S128x128_S128x128_0_0 : ∀ a, (![0, 0] : Fin 2 → Nat) a + S128x128.size a ≤ S128x128.size a
  h_S128x128 : 0 < S128x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S2000x128 : S1x128.Broadcasts S2000x128
  shapeCasts_S64_S1x64 : S64.ShapeCasts S1x64
  inb_S128x64_S128x64_0_0 : ∀ a, (![0, 0] : Fin 2 → Nat) a + S128x64.size a ≤ S128x64.size a
  h_S128x64 : 0 < S128x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S2000x64 : S1x64.Broadcasts S2000x64
  inb_S2000x64_S2000x64_0_0 : ∀ a, (![0, 0] : Fin 2 → Nat) a + S2000x64.size a ≤ S2000x64.size a
  h_S2000x64 : 0 < S2000x64.numel
  scatter_S100000_S1600000x1_S1600000_n_0_0_1_wf : ScatterDims.WF S100000 S1600000x1 S1600000 [] [0] [0] 1
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S2000x128_S128x128_S2000x128_1_0_0_1_n_n_wf : DotDims.WF S2000x128 S128x128 S2000x128 [1] [0] [0] [1] [] []
  dot_S2000x128_S128x64_S2000x64_1_0_0_1_n_n_wf : DotDims.WF S2000x128 S128x64 S2000x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S100000x128.size a
  hwx0_0 : ∀ i : grid0.Coords, EltTy.bits .f32 = 32 ∨ (Rect.block (s := S100000x128) S2000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2000x128.size a ≤ S100000x128.size a
  hwx0_1 : ∀ i : grid0.Coords, EltTy.bits .f32 = 32 ∨ (Rect.block (s := S100000x128) S2000x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x1.size a ≤ S100000x1.size a
  hwx0_2 : ∀ i : grid0.Coords, EltTy.bits .f32 = 32 ∨ (Rect.block (s := S100000x1) S2000x1.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x128.size a ≤ S128x128.size a
  hwx0_4 : ∀ i : grid0.Coords, EltTy.bits .f32 = 32 ∨ (Rect.block (s := S128x128) S128x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x128.size a ≤ S1x128.size a
  hwx0_5 : ∀ i : grid0.Coords, EltTy.bits .f32 = 32 ∨ (Rect.block (s := S1x128) S1x128.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S2000x128.size a ≤ S100000x128.size a
  hwx0_6 : ∀ i : grid0.Coords, EltTy.bits .f32 = 32 ∨ (Rect.block (s := S100000x128) S2000x128.size (cc0_transform_6 i) (hinb0_6 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x128.size a ≤ S100000x128.size a
  hwx1_0 : ∀ i : grid1.Coords, EltTy.bits .f32 = 32 ∨ (Rect.block (s := S100000x128) S2000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x128.size a ≤ S100000x128.size a
  hwx1_1 : ∀ i : grid1.Coords, EltTy.bits .f32 = 32 ∨ (Rect.block (s := S100000x128) S2000x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2000x1.size a ≤ S100000x1.size a
  hwx1_2 : ∀ i : grid1.Coords, EltTy.bits .f32 = 32 ∨ (Rect.block (s := S100000x1) S2000x1.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x128.size a ≤ S128x128.size a
  hwx1_3 : ∀ i : grid1.Coords, EltTy.bits .f32 = 32 ∨ (Rect.block (s := S128x128) S128x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128x128.size a ≤ S128x128.size a
  hwx1_4 : ∀ i : grid1.Coords, EltTy.bits .f32 = 32 ∨ (Rect.block (s := S128x128) S128x128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x128.size a ≤ S1x128.size a
  hwx1_5 : ∀ i : grid1.Coords, EltTy.bits .f32 = 32 ∨ (Rect.block (s := S1x128) S1x128.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S2000x128.size a ≤ S100000x128.size a
  hwx1_6 : ∀ i : grid1.Coords, EltTy.bits .f32 = 32 ∨ (Rect.block (s := S100000x128) S2000x128.size (cc1_transform_6 i) (hinb1_6 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x128.size a ≤ S100000x128.size a
  hwx2_0 : ∀ i : grid2.Coords, EltTy.bits .f32 = 32 ∨ (Rect.block (s := S100000x128) S2000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S2000x128.size a ≤ S100000x128.size a
  hwx2_1 : ∀ i : grid2.Coords, EltTy.bits .f32 = 32 ∨ (Rect.block (s := S100000x128) S2000x128.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S2000x1.size a ≤ S100000x1.size a
  hwx2_2 : ∀ i : grid2.Coords, EltTy.bits .f32 = 32 ∨ (Rect.block (s := S100000x1) S2000x1.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S128x64.size a ≤ S128x64.size a
  hwx2_3 : ∀ i : grid2.Coords, EltTy.bits .f32 = 32 ∨ (Rect.block (s := S128x64) S128x64.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S128x64.size a ≤ S128x64.size a
  hwx2_4 : ∀ i : grid2.Coords, EltTy.bits .f32 = 32 ∨ (Rect.block (s := S128x64) S128x64.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S1x64.size a ≤ S1x64.size a
  hwx2_5 : ∀ i : grid2.Coords, EltTy.bits .f32 = 32 ∨ (Rect.block (s := S1x64) S1x64.size (cc2_transform_5 i) (hinb2_5 i)).WholeWords (EltTy.packing .f32)
  hstage2_6 : ∀ j, (stage2_6 j).IsWhole
  nbuf2_6 : grid2.bufCount reads2_6 false = 2
  hreads2_6 : ∀ i i' : grid2.Coords, (∀ a, reads2_6 a = true → i a = i' a) → cc2_transform_6 i = cc2_transform_6 i'
  hinb2_6 : ∀ (i : grid2.Coords) a, (cc2_transform_6 i a + 1) * S2000x64.size a ≤ S100000x64.size a
  hwx2_6 : ∀ i : grid2.Coords, EltTy.bits .f32 = 32 ∨ (Rect.block (s := S100000x64) S2000x64.size (cc2_transform_6 i) (hinb2_6 i)).WholeWords (EltTy.packing .f32)

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S2000x128_S128x128_S2000x128_1_0_0_1_n_n : DotDims S2000x128 S128x128 S2000x128 where
  lhsContracting := [1]
  rhsContracting := [0]
  lhsNonContracting := [0]
  rhsNonContracting := [1]
  lhsBatch := []
  rhsBatch := []
  wf := dot_S2000x128_S128x128_S2000x128_1_0_0_1_n_n_wf
def dot_S2000x128_S128x64_S2000x64_1_0_0_1_n_n : DotDims S2000x128 S128x64 S2000x64 where
  lhsContracting := [1]
  rhsContracting := [0]
  lhsNonContracting := [0]
  rhsNonContracting := [1]
  lhsBatch := []
  rhsBatch := []
  wf := dot_S2000x128_S128x64_S2000x64_1_0_0_1_n_n_wf

abbrev win0_0 : Pipeline.Window sig grid0 :=
  Pipeline.Window.ofSpec (Memref.whole main_arg0) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v22) S2000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v12) S2000x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg2) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg3) S128x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v23) S1x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v24) S2000x128.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev win1_0 : Pipeline.Window sig grid1 :=
  Pipeline.Window.ofSpec (Memref.whole main_v24) S2000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v34) S2000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v12) S2000x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_arg5) S128x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg6) S128x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v35) S1x128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v36) S2000x128.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

abbrev win2_0 : Pipeline.Window sig grid2 :=
  Pipeline.Window.ofSpec (Memref.whole main_v36) S2000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v46) S2000x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v12) S2000x1.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_arg8) S128x64.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_arg9) S128x64.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v47) S1x64.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v48) S2000x64.size cc2_transform_6 reads2_6 true false 2 stage2_6 sem2_6
    hrank2 hreads2_6 hinb2_6 nbuf2_6 (Memref.isWhole_whole _) hwx2_6 hstage2_6

abbrev win2 : Fin 7 → Pipeline.Window sig grid2 := fun | 0 => win2_0 | 1 => win2_1 | 2 => win2_2 | 3 => win2_3 | 4 => win2_4 | 5 => win2_5 | 6 => win2_6 | ⟨_ + 7, h⟩ => absurd h (Nat.not_lt.2 (Nat.le_add_left _ _))
abbrev spec2 : Fin 7 → Pipeline.WinSpec sig grid2.rank := fun w => (win2 w).toWinSpec

class Facts : Prop extends Facts₀ where

variable [Facts]
-- ==== ReferenceIdeal.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S1x1600000 : Shape := ⟨2, ![1, 1600000]⟩
abbrev S1600000 : Shape := ⟨1, ![1600000]⟩
abbrev S_ : Shape := ⟨0, ![]⟩
abbrev S100000 : Shape := ⟨1, ![100000]⟩
abbrev S1600000x1 : Shape := ⟨2, ![1600000, 1]⟩
abbrev S100000x1 : Shape := ⟨2, ![100000, 1]⟩
abbrev S1600000x128 : Shape := ⟨2, ![1600000, 128]⟩
abbrev S1x128 : Shape := ⟨2, ![1, 128]⟩
abbrev S100000x64 : Shape := ⟨2, ![100000, 64]⟩
abbrev S1x64 : Shape := ⟨2, ![1, 64]⟩

abbrev nBuf : Space → Nat
  | .hbm => 97
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S128x128, .f32⟩
  | .hbm, ⟨3, _⟩ => ⟨S128x128, .f32⟩
  | .hbm, ⟨4, _⟩ => ⟨S128, .f32⟩
  | .hbm, ⟨5, _⟩ => ⟨S128x128, .f32⟩
  | .hbm, ⟨6, _⟩ => ⟨S128x128, .f32⟩
  | .hbm, ⟨7, _⟩ => ⟨S128, .f32⟩
  | .hbm, ⟨8, _⟩ => ⟨S128x64, .f32⟩
  | .hbm, ⟨9, _⟩ => ⟨S128x64, .f32⟩
  | .hbm, ⟨10, _⟩ => ⟨S64, .f32⟩
  | .hbm, ⟨11, _⟩ => ⟨S1x1600000, .i32⟩
  | .hbm, ⟨12, _⟩ => ⟨S1600000, .i32⟩
  | .hbm, ⟨13, _⟩ => ⟨S1x1600000, .i32⟩
  | .hbm, ⟨14, _⟩ => ⟨S1600000, .i32⟩
  | .hbm, ⟨15, _⟩ => ⟨S_, .f32⟩
  | .hbm, ⟨16, _⟩ => ⟨S1600000, .f32⟩
  | .hbm, ⟨17, _⟩ => ⟨S_, .f32⟩
  | .hbm, ⟨18, _⟩ => ⟨S100000, .f32⟩
  | .hbm, ⟨19, _⟩ => ⟨S1600000x1, .i32⟩
  | .hbm, ⟨20, _⟩ => ⟨S100000, .f32⟩
  | .hbm, ⟨21, _⟩ => ⟨S_, .f32⟩
  | .hbm, ⟨22, _⟩ => ⟨S100000, .f32⟩
  | .hbm, ⟨23, _⟩ => ⟨S100000, .f32⟩
  | .hbm, ⟨24, _⟩ => ⟨S_, .f32⟩
  | .hbm, ⟨25, _⟩ => ⟨S100000, .f32⟩
  | .hbm, ⟨26, _⟩ => ⟨S100000, .f32⟩
  | .hbm, ⟨27, _⟩ => ⟨S100000x1, .f32⟩
  | .hbm, ⟨28, _⟩ => ⟨S_, .i32⟩
  | .hbm, ⟨29, _⟩ => ⟨S1600000, .i32⟩
  | .hbm, ⟨30, _⟩ => ⟨S1600000, .i1⟩
  | .hbm, ⟨31, _⟩ => ⟨S_, .i32⟩
  | .hbm, ⟨32, _⟩ => ⟨S1600000, .i32⟩
  | .hbm, ⟨33, _⟩ => ⟨S1600000, .i32⟩
  | .hbm, ⟨34, _⟩ => ⟨S1600000, .i32⟩
  | .hbm, ⟨35, _⟩ => ⟨S1600000x1, .i32⟩
  | .hbm, ⟨36, _⟩ => ⟨S1600000x128, .f32⟩
  | .hbm, ⟨37, _⟩ => ⟨S_, .f32⟩
  | .hbm, ⟨38, _⟩ => ⟨S100000x128, .f32⟩
  | .hbm, ⟨39, _⟩ => ⟨S1600000x1, .i32⟩
  | .hbm, ⟨40, _⟩ => ⟨S100000x128, .f32⟩
  | .hbm, ⟨41, _⟩ => ⟨S100000x128, .f32⟩
  | .hbm, ⟨42, _⟩ => ⟨S100000x128, .f32⟩
  | .hbm, ⟨43, _⟩ => ⟨S100000x128, .f32⟩
  | .hbm, ⟨44, _⟩ => ⟨S100000x128, .f32⟩
  | .hbm, ⟨45, _⟩ => ⟨S100000x128, .f32⟩
  | .hbm, ⟨46, _⟩ => ⟨S1x128, .f32⟩
  | .hbm, ⟨47, _⟩ => ⟨S100000x128, .f32⟩
  | .hbm, ⟨48, _⟩ => ⟨S100000x128, .f32⟩
  | .hbm, ⟨49, _⟩ => ⟨S_, .f32⟩
  | .hbm, ⟨50, _⟩ => ⟨S100000x128, .f32⟩
  | .hbm, ⟨51, _⟩ => ⟨S100000x128, .f32⟩
  | .hbm, ⟨52, _⟩ => ⟨S_, .i32⟩
  | .hbm, ⟨53, _⟩ => ⟨S1600000, .i32⟩
  | .hbm, ⟨54, _⟩ => ⟨S1600000, .i1⟩
  | .hbm, ⟨55, _⟩ => ⟨S_, .i32⟩
  | .hbm, ⟨56, _⟩ => ⟨S1600000, .i32⟩
  | .hbm, ⟨57, _⟩ => ⟨S1600000, .i32⟩
  | .hbm, ⟨58, _⟩ => ⟨S1600000, .i32⟩
  | .hbm, ⟨59, _⟩ => ⟨S1600000x1, .i32⟩
  | .hbm, ⟨60, _⟩ => ⟨S1600000x128, .f32⟩
  | .hbm, ⟨61, _⟩ => ⟨S_, .f32⟩
  | .hbm, ⟨62, _⟩ => ⟨S100000x128, .f32⟩
  | .hbm, ⟨63, _⟩ => ⟨S1600000x1, .i32⟩
  | .hbm, ⟨64, _⟩ => ⟨S100000x128, .f32⟩
  | .hbm, ⟨65, _⟩ => ⟨S100000x128, .f32⟩
  | .hbm, ⟨66, _⟩ => ⟨S100000x128, .f32⟩
  | .hbm, ⟨67, _⟩ => ⟨S100000x128, .f32⟩
  | .hbm, ⟨68, _⟩ => ⟨S100000x128, .f32⟩
  | .hbm, ⟨69, _⟩ => ⟨S100000x128, .f32⟩
  | .hbm, ⟨70, _⟩ => ⟨S1x128, .f32⟩
  | .hbm, ⟨71, _⟩ => ⟨S100000x128, .f32⟩
  | .hbm, ⟨72, _⟩ => ⟨S100000x128, .f32⟩
  | .hbm, ⟨73, _⟩ => ⟨S_, .f32⟩
  | .hbm, ⟨74, _⟩ => ⟨S100000x128, .f32⟩
  | .hbm, ⟨75, _⟩ => ⟨S100000x128, .f32⟩
  | .hbm, ⟨76, _⟩ => ⟨S_, .i32⟩
  | .hbm, ⟨77, _⟩ => ⟨S1600000, .i32⟩
  | .hbm, ⟨78, _⟩ => ⟨S1600000, .i1⟩
  | .hbm, ⟨79, _⟩ => ⟨S_, .i32⟩
  | .hbm, ⟨80, _⟩ => ⟨S1600000, .i32⟩
  | .hbm, ⟨81, _⟩ => ⟨S1600000, .i32⟩
  | .hbm, ⟨82, _⟩ => ⟨S1600000, .i32⟩
  | .hbm, ⟨83, _⟩ => ⟨S1600000x1, .i32⟩
  | .hbm, ⟨84, _⟩ => ⟨S1600000x128, .f32⟩
  | .hbm, ⟨85, _⟩ => ⟨S_, .f32⟩
  | .hbm, ⟨86, _⟩ => ⟨S100000x128, .f32⟩
  | .hbm, ⟨87, _⟩ => ⟨S1600000x1, .i32⟩
  | .hbm, ⟨88, _⟩ => ⟨S100000x128, .f32⟩
  | .hbm, ⟨89, _⟩ => ⟨S100000x128, .f32⟩
  | .hbm, ⟨90, _⟩ => ⟨S100000x128, .f32⟩
  | .hbm, ⟨91, _⟩ => ⟨S100000x64, .f32⟩
  | .hbm, ⟨92, _⟩ => ⟨S100000x64, .f32⟩
  | .hbm, ⟨93, _⟩ => ⟨S100000x64, .f32⟩
  | .hbm, ⟨94, _⟩ => ⟨S1x64, .f32⟩
  | .hbm, ⟨95, _⟩ => ⟨S100000x64, .f32⟩
  | .hbm, ⟨96, _⟩ => ⟨S100000x64, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_cst : Ref sig .tc := ⟨.hbm, 15, rfl⟩
abbrev main_v4 : Ref sig .tc := ⟨.hbm, 16, rfl⟩
abbrev main_cst_0 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_cst_1 : Ref sig .tc := ⟨.hbm, 21, rfl⟩
abbrev main_v8 : Ref sig .tc := ⟨.hbm, 22, rfl⟩
abbrev main_v9 : Ref sig .tc := ⟨.hbm, 23, rfl⟩
abbrev main_cst_2 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_c : Ref sig .tc := ⟨.hbm, 28, rfl⟩
abbrev main_v13 : Ref sig .tc := ⟨.hbm, 29, rfl⟩
abbrev main_v14 : Ref sig .tc := ⟨.hbm, 30, rfl⟩
abbrev main_c_3 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_cst_4 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_call0_cst : Ref sig .tc := ⟨.hbm, 49, rfl⟩
abbrev main_call0_v0 : Ref sig .tc := ⟨.hbm, 50, rfl⟩
abbrev main_v31 : Ref sig .tc := ⟨.hbm, 51, rfl⟩
abbrev main_c_5 : Ref sig .tc := ⟨.hbm, 52, rfl⟩
abbrev main_v32 : Ref sig .tc := ⟨.hbm, 53, rfl⟩
abbrev main_v33 : Ref sig .tc := ⟨.hbm, 54, rfl⟩
abbrev main_c_6 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_cst_7 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_call1_cst : Ref sig .tc := ⟨.hbm, 73, rfl⟩
abbrev main_call1_v0 : Ref sig .tc := ⟨.hbm, 74, rfl⟩
abbrev main_v50 : Ref sig .tc := ⟨.hbm, 75, rfl⟩
abbrev main_c_8 : Ref sig .tc := ⟨.hbm, 76, rfl⟩
abbrev main_v51 : Ref sig .tc := ⟨.hbm, 77, rfl⟩
abbrev main_v52 : Ref sig .tc := ⟨.hbm, 78, rfl⟩
abbrev main_c_9 : Ref sig .tc := ⟨.hbm, 79, rfl⟩
abbrev main_v53 : Ref sig .tc := ⟨.hbm, 80, rfl⟩
abbrev main_v54 : Ref sig .tc := ⟨.hbm, 81, rfl⟩
abbrev main_v55 : Ref sig .tc := ⟨.hbm, 82, rfl⟩
abbrev main_v56 : Ref sig .tc := ⟨.hbm, 83, rfl⟩
abbrev main_v57 : Ref sig .tc := ⟨.hbm, 84, rfl⟩
abbrev main_cst_10 : Ref sig .tc := ⟨.hbm, 85, rfl⟩
abbrev main_v58 : Ref sig .tc := ⟨.hbm, 86, rfl⟩
abbrev main_v59 : Ref sig .tc := ⟨.hbm, 87, rfl⟩
abbrev main_v60 : Ref sig .tc := ⟨.hbm, 88, rfl⟩
abbrev main_v61 : Ref sig .tc := ⟨.hbm, 89, rfl⟩
abbrev main_v62 : Ref sig .tc := ⟨.hbm, 90, rfl⟩
abbrev main_v63 : Ref sig .tc := ⟨.hbm, 91, rfl⟩
abbrev main_v64 : Ref sig .tc := ⟨.hbm, 92, rfl⟩
abbrev main_v65 : Ref sig .tc := ⟨.hbm, 93, rfl⟩
abbrev main_v66 : Ref sig .tc := ⟨.hbm, 94, rfl⟩
abbrev main_v67 : Ref sig .tc := ⟨.hbm, 95, rfl⟩
abbrev main_v68 : Ref sig .tc := ⟨.hbm, 96, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  bcast_S100000_S100000x1_0 : S100000.BroadcastsInDim S100000x1 (![0] : Fin 1 → Fin S100000x1.rank)
  bcast_S_S100000x128 : S_.BroadcastsInDim S100000x128 (![] : Fin 0 → Fin S100000x128.rank)
  bcast_S100000x1_S100000x128_0_1 : S100000x1.BroadcastsInDim S100000x128 (![0, 1] : Fin 2 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  scatter_S100000_S1600000x1_S1600000_n_0_0_1_wf : ScatterDims.WF S100000 S1600000x1 S1600000 [] [0] [0] 1
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S100000x128_S128x128_S100000x128_1_0_0_1_n_n_wf : DotDims.WF S100000x128 S128x128 S100000x128 [1] [0] [0] [1] [] []
  dot_S100000x128_S128x64_S100000x64_1_0_0_1_n_n_wf : DotDims.WF S100000x128 S128x64 S100000x64 [1] [0] [0] [1] [] []

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf

class Facts : Prop extends Facts₀ where

variable [Facts]
-- ==== Proof.KernelRun.lean ====
/-
  The idealized kernel's run with its result named. The program is three pallas_calls among three stretches of host
  operations; run as six segments from the launch memory, every weakly fair execution terminates, nothing faults, and in
  the final state every buffer the host program owns holds the last boundary's contents `W6` — the fold of the host
  stretches and of each region's write-backs over the launch memory. Read at the result buffer this is the value the
  certificate compares with the reference's; read at an argument it is the argument as launched.
-/
import proofs.«161846_j61761629716974_1_alg».proof.Proof.FrameKernelIdealP

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- the launch theorem's implicit arguments are found by unifying its conclusion with this one, which takes unfolding
-- plain definitions in a metavariable's type
set_option backward.isDefEq.respectTransparency.types false in
/-- Every weakly fair execution of @main terminates, nothing faulting, with the result buffer at the last boundary's
    contents and each argument as launched: the six segments launched together, the last thread state read against the
    final state buffer by buffer. -/
theorem run : θ_run defs (onTc (τ := τ) (main (F := F))) ⟨m, fun _ => 0, ρ⟩ (fun r => ∀ c : Dev nD,
      r.2.mem ((c.tc : Thread nD τ).loc main_v48) = W6 m ρ c (Proc.devRef .tc main_v48)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h c =>
      ⟨h c _ (mem_uc main_v48 (by decide)),
       (h c _ (mem_uc main_arg0 (by decide))).trans (W6_main_arg0 m ρ c),
       (h c _ (mem_uc main_arg1 (by decide))).trans (W6_main_arg1 m ρ c),
       (h c _ (mem_uc main_arg2 (by decide))).trans (W6_main_arg2 m ρ c),
       (h c _ (mem_uc main_arg3 (by decide))).trans (W6_main_arg3 m ρ c),
       (h c _ (mem_uc main_arg4 (by decide))).trans (W6_main_arg4 m ρ c),
       (h c _ (mem_uc main_arg5 (by decide))).trans (W6_main_arg5 m ρ c),
       (h c _ (mem_uc main_arg6 (by decide))).trans (W6_main_arg6 m ρ c),
       (h c _ (mem_uc main_arg7 (by decide))).trans (W6_main_arg7 m ρ c),
       (h c _ (mem_uc main_arg8 (by decide))).trans (W6_main_arg8 m ρ c),
       (h c _ (mem_uc main_arg9 (by decide))).trans (W6_main_arg9 m ρ c),
       (h c _ (mem_uc main_arg10 (by decide))).trans (W6_main_arg10 m ρ c)⟩)

end Cert.KernelIdeal.Run

end
-- ==== Proof.LibPlainDot.lean ====
/-
  A plain two-dimensional matrix product — `M × K` by `K × N`, contracting the left operand's columns with the right operand's
  rows, no batch axis (`DotDims.plain M K N`, the dimension numbers `<[1], [0], [0], [1]>`) — read at an output index over the
  extended reals: both a kernel's `tpu.matmul` into a zero accumulator and the host's `dot_general` are the finite sum
  `Σ_{k < K} lhs (r, k) · rhs (k, j)`, with the contraction index a plain `Fin K` and the operand indices built from coordinates.
  A printed record `dot_S…_1_0_0_1_n_n` of these dimension numbers IS `DotDims.plain M K N` (`rfl`: the lists coincide and the
  well-formedness field is a proposition), so one `rw` with that equation brings a printed product under these lemmas.
-/
import Idealize.ShloMosaic.PureOps.Ideal.Laws
import Idealize.ShloMosaic.Lib.ValueIdx

namespace Idealize.ShloMosaic.PlainDot

open Idealize.ShloMosaic.ValueIdx

variable {M K N : Nat}

theorem contr_rank : (DotDims.plain M K N).contr.rank = 1 := rfl
theorem contr_size : (DotDims.plain M K N).contr.size ⟨0, by rw [contr_rank]; exact Nat.one_pos⟩ = K := rfl

/-- The left operand's row coordinate is the output's. -/
theorem lhsIdx_val0 (j : (⟨2, ![M, N]⟩ : Shape).Idx) (q : (DotDims.plain M K N).contr.Idx) :
    ((DotDims.plain M K N).lhsIdx j q 0).val = (j 0).val := by
  unfold DotDims.lhsIdx
  rw [dif_neg (show ¬(0 : Fin (⟨2, ![M, K]⟩ : Shape).rank) ∈ (DotDims.plain M K N).lhsBatch from List.not_mem_nil),
    dif_pos (show (0 : Fin (⟨2, ![M, K]⟩ : Shape).rank) ∈ (DotDims.plain M K N).lhsNonContracting from List.mem_singleton.mpr rfl)]
  rfl

/-- The left operand's column coordinate is the contraction position. -/
theorem lhsIdx_val1 (j : (⟨2, ![M, N]⟩ : Shape).Idx) (q : (DotDims.plain M K N).contr.Idx) :
    ((DotDims.plain M K N).lhsIdx j q 1).val = (q ⟨0, by rw [contr_rank]; exact Nat.one_pos⟩).val :=
  (DotDims.plain M K N).lhsIdx_val_of_single (cl := (1 : Fin 2)) rfl j q

/-- The right operand's row coordinate is the contraction position. -/
theorem rhsIdx_val0 (j : (⟨2, ![M, N]⟩ : Shape).Idx) (q : (DotDims.plain M K N).contr.Idx) :
    ((DotDims.plain M K N).rhsIdx j q 0).val = (q ⟨0, by rw [contr_rank]; exact Nat.one_pos⟩).val :=
  (DotDims.plain M K N).rhsIdx_val_of_single (cr := (0 : Fin 2)) rfl j q

/-- The right operand's column coordinate is the output's. -/
theorem rhsIdx_val1 (j : (⟨2, ![M, N]⟩ : Shape).Idx) (q : (DotDims.plain M K N).contr.Idx) :
    ((DotDims.plain M K N).rhsIdx j q 1).val = (j 1).val := by
  unfold DotDims.rhsIdx
  rw [dif_neg (show ¬(1 : Fin (⟨2, ![K, N]⟩ : Shape).rank) ∈ (DotDims.plain M K N).rhsBatch from List.not_mem_nil),
    dif_pos (show (1 : Fin (⟨2, ![K, N]⟩ : Shape).rank) ∈ (DotDims.plain M K N).rhsNonContracting from List.mem_singleton.mpr rfl)]
  rfl

/-- The left operand's index at output index `j` and contraction position `k` is `(j₀, k)`. -/
theorem lhsIdx_eq (j : (⟨2, ![M, N]⟩ : Shape).Idx) (k : Fin K) :
    (DotDims.plain M K N).lhsIdx j ((contrEquiv1 (DotDims.plain M K N) K contr_rank contr_size).symm k)
      = ix2 ⟨(j 0).val, idx2_lt0 j⟩ k := by
  have hk := contrEquiv1_symm_val (DotDims.plain M K N) K contr_rank contr_size k
  funext a
  apply Fin.ext
  match a with
  | ⟨0, _⟩ => exact lhsIdx_val0 j _
  | ⟨1, _⟩ => exact (lhsIdx_val1 j _).trans hk

/-- The right operand's index there is `(k, j₁)`. -/
theorem rhsIdx_eq (j : (⟨2, ![M, N]⟩ : Shape).Idx) (k : Fin K) :
    (DotDims.plain M K N).rhsIdx j ((contrEquiv1 (DotDims.plain M K N) K contr_rank contr_size).symm k)
      = ix2 k ⟨(j 1).val, idx2_lt1 j⟩ := by
  have hk := contrEquiv1_symm_val (DotDims.plain M K N) K contr_rank contr_size k
  funext a
  apply Fin.ext
  match a with
  | ⟨0, _⟩ => exact (rhsIdx_val0 j _).trans hk
  | ⟨1, _⟩ => exact rhsIdx_val1 j _

/-- A kernel's plain matrix product into the zero accumulator, at an output index: the sum over the contracted coordinate. -/
theorem matmul_apply {φ₁ φ₂ : FTy} (prec : Option ContractPrecision) (lhs : FVec Ideal ⟨2, ![M, K]⟩ φ₁)
    (rhs : FVec Ideal ⟨2, ![K, N]⟩ φ₂) (j : (⟨2, ![M, N]⟩ : Shape).Idx) :
    FloatOps.matmul (DotDims.plain M K N) prec lhs rhs (constant ⟨2, ![M, N]⟩ .f32 0x00000000#32) j
      = ∑ k : Fin K, lhs (ix2 ⟨(j 0).val, idx2_lt0 j⟩ k) * rhs (ix2 k ⟨(j 1).val, idx2_lt1 j⟩) := by
  rw [Ideal.matmul_constant_zero_apply,
    ← Equiv.sum_comp (contrEquiv1 (DotDims.plain M K N) K contr_rank contr_size).symm]
  refine Finset.sum_congr rfl fun k _ => ?_
  rw [lhsIdx_eq, rhsIdx_eq]

/-- The host's plain `dot_general` at an output index: the same sum. -/
theorem dotGeneral_apply {φ₁ φ₂ : FTy} (prec : Option ContractPrecision) (sched : HostSchedule)
    (lhs : FVec Ideal ⟨2, ![M, K]⟩ φ₁) (rhs : FVec Ideal ⟨2, ![K, N]⟩ φ₂) (j : (⟨2, ![M, N]⟩ : Shape).Idx) :
    FloatOps.dotGeneral (DotDims.plain M K N) prec sched lhs rhs j
      = ∑ k : Fin K, lhs (ix2 ⟨(j 0).val, idx2_lt0 j⟩ k) * rhs (ix2 k ⟨(j 1).val, idx2_lt1 j⟩) := by
  rw [Ideal.dotGeneral_apply,
    ← Equiv.sum_comp (contrEquiv1 (DotDims.plain M K N) K contr_rank contr_size).symm]
  refine Finset.sum_congr rfl fun k _ => ?_
  rw [lhsIdx_eq, rhsIdx_eq]

/-- At an index given by coordinates. -/
theorem matmul_apply_ix2 {φ₁ φ₂ : FTy} (prec : Option ContractPrecision) (lhs : FVec Ideal ⟨2, ![M, K]⟩ φ₁)
    (rhs : FVec Ideal ⟨2, ![K, N]⟩ φ₂) (r : Fin M) (c : Fin N) :
    FloatOps.matmul (DotDims.plain M K N) prec lhs rhs (constant ⟨2, ![M, N]⟩ .f32 0x00000000#32) (ix2 r c)
      = ∑ k : Fin K, lhs (ix2 r k) * rhs (ix2 k c) :=
  matmul_apply prec lhs rhs (ix2 r c)

theorem dotGeneral_apply_ix2 {φ₁ φ₂ : FTy} (prec : Option ContractPrecision) (sched : HostSchedule)
    (lhs : FVec Ideal ⟨2, ![M, K]⟩ φ₁) (rhs : FVec Ideal ⟨2, ![K, N]⟩ φ₂) (r : Fin M) (c : Fin N) :
    FloatOps.dotGeneral (DotDims.plain M K N) prec sched lhs rhs (ix2 r c)
      = ∑ k : Fin K, lhs (ix2 r k) * rhs (ix2 k c) :=
  dotGeneral_apply prec sched lhs rhs (ix2 r c)

end Idealize.ShloMosaic.PlainDot
-- ==== Proof.LibColumn.lean ====
/-
  A column vector kept as a trailing unit axis (`jnp.sum(…, keepdims=True)`), read at an index given by coordinates:
  a vector `[a]` cast to the column `[a, 1]`, and a column `[a, 1]` broadcast along its unit axis to `[a, b]`. Both read the
  operand at the row coordinate alone.
-/
import Idealize.ShloMosaic.Lib.Pipeline.Value
import Idealize.ShloMosaic.Lib.ValueIdx

namespace Idealize.ShloMosaic.Column

open Idealize.ShloMosaic Idealize.ShloMosaic.ValueIdx

variable {α : Type}

/-- An `[a]` array cast to the column `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the operand's row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Idealize.ShloMosaic.Column
-- ==== Proof.LibAffine.lean ====
/-
  Rows times weights plus a bias row, over the extended reals, in its two spellings. A row-tiled kernel computes, for a block
  `x` of rows, `matmul (bf16 x) w 0 + broadcast b`: the rounding of the left operand to bf16 is the identity on the extended
  reals, the matrix unit's product into a zero accumulator is the finite sum over the contracted coordinate, and the bias row
  `[1, M]` is repeated down the rows. The host computes `dot_general X W + broadcast (broadcast b)` with `b` of shape `[M]`
  lifted to `[1, M]` and then to `[A, M]`. Entry `(r, j)` of either is `Σ_k X(r,k)·W(k,j) + b(j)`.
-/
import Idealize.ShloMosaic.PureOps.Ideal.Laws
import Idealize.ShloMosaic.Lib.ValueIdx
import Idealize.ShloMosaic.Lib.ValueLayout
import Idealize.ShloMosaic.Lib.Pipeline.Value
import proofs.«161846_j61761629716974_1_alg».proof.Proof.LibPlainDot

namespace Idealize.ShloMosaic.Affine

open Idealize.ShloMosaic.ValueIdx

variable {A K M : Nat}

/-- Rows times weights plus the bias row: entry `(r, j)` is `Σ_k X(r,k)·W(k,j) + b(0,j)`. -/
noncomputable def affine {φw : FTy} (X : FVec Ideal ⟨2, ![A, K]⟩ .f32) (W : FVec Ideal ⟨2, ![K, M]⟩ φw) (b : FVec Ideal ⟨2, ![1, M]⟩ .f32) :
    FVec Ideal ⟨2, ![A, M]⟩ .f32 :=
  fun i => (∑ k : Fin K, X (ix2 ⟨(i 0).val, idx2_lt0 i⟩ k) * W (ix2 k ⟨(i 1).val, idx2_lt1 i⟩))
    + b (ix2 (0 : Fin 1) ⟨(i 1).val, idx2_lt1 i⟩)

theorem affine_ix2 {φw : FTy} (X : FVec Ideal ⟨2, ![A, K]⟩ .f32) (W : FVec Ideal ⟨2, ![K, M]⟩ φw) (b : FVec Ideal ⟨2, ![1, M]⟩ .f32)
    (p : Fin A) (q : Fin M) :
    affine X W b (ix2 p q) = (∑ k : Fin K, X (ix2 p k) * W (ix2 k q)) + b (ix2 (0 : Fin 1) q) := rfl

/-- The kernel body's value at row `p`, column `q` of its block. -/
theorem body_apply {φw : FTy} (prec : Option ContractPrecision) (x0 : FVec Ideal ⟨2, ![A, K]⟩ .f32) (x1 : FVec Ideal ⟨2, ![K, M]⟩ φw)
    (x2 : FVec Ideal ⟨2, ![1, M]⟩ .f32) (ht : FTy.bf16.bits < FTy.f32.bits)
    (hb : (⟨2, ![1, M]⟩ : Shape).Broadcasts ⟨2, ![A, M]⟩) (p : Fin A) (q : Fin M) :
    addf (FloatOps.matmul (DotDims.plain A K M) prec (truncf .bf16 x0 ht) x1 (constant ⟨2, ![A, M]⟩ .f32 0x00000000#32))
        (broadcastTo ⟨2, ![A, M]⟩ x2 hb) (ix2 p q)
      = affine x0 x1 x2 (ix2 p q) := by
  rw [affine_ix2]
  refine (addf_apply _ _ _).trans ?_
  refine congrArg₂ (· + ·) ?_ ?_
  · exact PlainDot.matmul_apply_ix2 prec (truncf .bf16 x0 ht) x1 p q
  · exact broadcastTo_1b_ab_apply x2 hb p q

/-- A bias `[M]` lifted to `[1, M]` and then to `[A, M]`, at `(p, q)`: its entry `q`. -/
theorem bias_rows_apply (b : FVec Ideal ⟨1, ![M]⟩ .f32) (h1 : (⟨1, ![M]⟩ : Shape).BroadcastsInDim ⟨2, ![1, M]⟩ ![1])
    (h2 : (⟨2, ![1, M]⟩ : Shape).BroadcastsInDim ⟨2, ![A, M]⟩ ![0, 1]) (p : Fin A) (q : Fin M) :
    broadcastInDim ⟨2, ![A, M]⟩ ![0, 1] h2 (broadcastInDim ⟨2, ![1, M]⟩ ![1] h1 b) (ix2 p q) = b (ix1 q) := by
  have hq := q.isLt
  refine (broadcastInDim_apply _ h2 _ (ix2 p q) (ix2 (0 : Fin 1) q) fun a => ?_).trans
    (broadcastInDim_apply _ h1 b (ix2 (0 : Fin 1) q) (ix1 q) fun a => ?_)
  · match a with
    | ⟨0, _⟩ => rfl
    | ⟨1, _⟩ =>
      show q.val = if M = 1 then 0 else q.val
      split
      · omega
      · rfl
  · match a with
    | ⟨0, _⟩ =>
      show q.val = if M = 1 then 0 else q.val
      split
      · omega
      · rfl

/-- The host's spelling at `(p, q)`. -/
theorem host_apply (prec : Option ContractPrecision) (sched : HostSchedule) (X : FVec Ideal ⟨2, ![A, K]⟩ .f32)
    (W : FVec Ideal ⟨2, ![K, M]⟩ .f32) (b : FVec Ideal ⟨1, ![M]⟩ .f32)
    (h1 : (⟨1, ![M]⟩ : Shape).BroadcastsInDim ⟨2, ![1, M]⟩ ![1])
    (h2 : (⟨2, ![1, M]⟩ : Shape).BroadcastsInDim ⟨2, ![A, M]⟩ ![0, 1]) (p : Fin A) (q : Fin M) :
    addf (FloatOps.dotGeneral (DotDims.plain A K M) prec sched X W)
        (broadcastInDim ⟨2, ![A, M]⟩ ![0, 1] h2 (broadcastInDim ⟨2, ![1, M]⟩ ![1] h1 b)) (ix2 p q)
      = (∑ k : Fin K, X (ix2 p k) * W (ix2 k q)) + b (ix1 q) := by
  refine (addf_apply _ _ _).trans ?_
  refine congrArg₂ (· + ·) ?_ ?_
  · exact PlainDot.dotGeneral_apply_ix2 prec sched X W p q
  · exact bias_rows_apply b h1 h2 p q

/-- The two spellings agree: the kernel's weights are the host's rounded to bf16 (the identity here) and its bias row the
    host's bias recast to `[1, M]`. -/
theorem affine_eq_host (prec : Option ContractPrecision) (sched : HostSchedule) (X : FVec Ideal ⟨2, ![A, K]⟩ .f32)
    (W : FVec Ideal ⟨2, ![K, M]⟩ .f32) (b : FVec Ideal ⟨1, ![M]⟩ .f32) (ht : FTy.bf16.bits < FTy.f32.bits)
    (hc : (⟨1, ![M]⟩ : Shape).ShapeCasts ⟨2, ![1, M]⟩)
    (h1 : (⟨1, ![M]⟩ : Shape).BroadcastsInDim ⟨2, ![1, M]⟩ ![1])
    (h2 : (⟨2, ![1, M]⟩ : Shape).BroadcastsInDim ⟨2, ![A, M]⟩ ![0, 1]) :
    affine X (truncf .bf16 W ht) (shapeCast ⟨2, ![1, M]⟩ b hc)
      = addf (FloatOps.dotGeneral (DotDims.plain A K M) prec sched X W)
          (broadcastInDim ⟨2, ![A, M]⟩ ![0, 1] h2 (broadcastInDim ⟨2, ![1, M]⟩ ![1] h1 b)) := by
  funext i
  obtain ⟨p, q, rfl⟩ : ∃ (p : Fin A) (q : Fin M), i = ix2 p q := ⟨i 0, i 1, eq_ix2 i⟩
  rw [host_apply, affine_ix2, shapeCast_a_1a_apply]
  rfl

end Idealize.ShloMosaic.Affine
-- ==== Proof.LibMeanCombine.lean ====
/-
  A graph layer that combines each node's own features with the mean of its neighbours' features, over the extended reals,
  in its two spellings. For rows `X` (the nodes' features), rows `Ag` (the neighbours' features summed), a column `d` of
  reciprocal degrees, two weight matrices and a bias row, entry `(r, j)` of the layer is

      Σ_k X(r,k)·Ws(k,j)  +  Σ_k (Ag(r,k)·d(r))·Wn(k,j)  +  b(j).

  A row-tiled kernel body computes it on a block of rows with two matrix-unit products into zero accumulators (the operands
  rounded to bf16, which is the identity on the extended reals), the degree column `[A,1]` repeated along the columns, and the
  bias row `[1,M]` repeated down the rows. The host computes it with two `dot_general`s, the degree vector `[A]` lifted to
  `[A,1]` and then to `[A,K]`, and the bias `[M]` lifted to `[1,M]` and then to `[A,M]`. No law beyond re-indexing joins
  the two: the sums, products and additions stand in the same order, so nothing here needs finiteness.
  Entry `(r, j)` reads row `r` of `X`, `Ag` and `d` only (`combine_rows`): a block of rows of the layer is the layer of the
  blocks of rows.
-/
import Idealize.ShloMosaic.PureOps.Ideal.Laws
import Idealize.ShloMosaic.Lib.ValueIdx
import Idealize.ShloMosaic.Lib.ValueLayout
import Idealize.ShloMosaic.Lib.Pipeline.Value
import proofs.«161846_j61761629716974_1_alg».proof.Proof.LibPlainDot
import proofs.«161846_j61761629716974_1_alg».proof.Proof.LibColumn
import proofs.«161846_j61761629716974_1_alg».proof.Proof.LibAffine

namespace Idealize.ShloMosaic.MeanCombine

open Idealize.ShloMosaic.ValueIdx

variable {A K M : Nat}

/-- The layer: entry `(r, j)` is `Σ_k X(r,k)·Ws(k,j) + Σ_k (Ag(r,k)·d(r,0))·Wn(k,j) + b(0,j)`. -/
noncomputable def combine (X Ag : FVec Ideal ⟨2, ![A, K]⟩ .f32) (d : FVec Ideal ⟨2, ![A, 1]⟩ .f32)
    (Ws Wn : FVec Ideal ⟨2, ![K, M]⟩ .f32) (b : FVec Ideal ⟨2, ![1, M]⟩ .f32) : FVec Ideal ⟨2, ![A, M]⟩ .f32 :=
  fun i => (∑ k : Fin K, X (ix2 ⟨(i 0).val, idx2_lt0 i⟩ k) * Ws (ix2 k ⟨(i 1).val, idx2_lt1 i⟩))
    + (∑ k : Fin K, (Ag (ix2 ⟨(i 0).val, idx2_lt0 i⟩ k) * d (ix2 ⟨(i 0).val, idx2_lt0 i⟩ (0 : Fin 1))) * Wn (ix2 k ⟨(i 1).val, idx2_lt1 i⟩))
    + b (ix2 (0 : Fin 1) ⟨(i 1).val, idx2_lt1 i⟩)

theorem combine_ix2 (X Ag : FVec Ideal ⟨2, ![A, K]⟩ .f32) (d : FVec Ideal ⟨2, ![A, 1]⟩ .f32)
    (Ws Wn : FVec Ideal ⟨2, ![K, M]⟩ .f32) (b : FVec Ideal ⟨2, ![1, M]⟩ .f32) (p : Fin A) (q : Fin M) :
    combine X Ag d Ws Wn b (ix2 p q)
      = (∑ k : Fin K, X (ix2 p k) * Ws (ix2 k q)) + (∑ k : Fin K, (Ag (ix2 p k) * d (ix2 p (0 : Fin 1))) * Wn (ix2 k q))
        + b (ix2 (0 : Fin 1) q) := rfl

/-- The layer followed by the rectifier `max(·, 0)`, the zero kept as the f32 word both programs print. -/
noncomputable def combineRelu (X Ag : FVec Ideal ⟨2, ![A, K]⟩ .f32) (d : FVec Ideal ⟨2, ![A, 1]⟩ .f32)
    (Ws Wn : FVec Ideal ⟨2, ![K, M]⟩ .f32) (b : FVec Ideal ⟨2, ![1, M]⟩ .f32) : FVec Ideal ⟨2, ![A, M]⟩ .f32 :=
  fun i => max (combine X Ag d Ws Wn b i) (Ideal.ofBits .f32 0x00000000#32)

/-- Entry `(p, q)` of the layer on a block of rows is entry `(r, q)` of the layer on all rows, when row `p` of each block is
    row `r` of its array. -/
theorem combine_rows {N : Nat} (X Ag : FVec Ideal ⟨2, ![N, K]⟩ .f32) (d : FVec Ideal ⟨2, ![N, 1]⟩ .f32)
    (x0 x1 : FVec Ideal ⟨2, ![A, K]⟩ .f32) (x2 : FVec Ideal ⟨2, ![A, 1]⟩ .f32)
    (Ws Wn : FVec Ideal ⟨2, ![K, M]⟩ .f32) (b : FVec Ideal ⟨2, ![1, M]⟩ .f32) (p : Fin A) (r : Fin N) (q : Fin M)
    (h0 : ∀ k : Fin K, x0 (ix2 p k) = X (ix2 r k)) (h1 : ∀ k : Fin K, x1 (ix2 p k) = Ag (ix2 r k))
    (h2 : x2 (ix2 p (0 : Fin 1)) = d (ix2 r (0 : Fin 1))) :
    combine x0 x1 x2 Ws Wn b (ix2 p q) = combine X Ag d Ws Wn b (ix2 r q) := by
  rw [combine_ix2, combine_ix2, h2]
  refine congrArg₂ (· + ·) (congrArg₂ (· + ·) ?_ ?_) rfl
  · exact Finset.sum_congr rfl fun k _ => by rw [h0 k]
  · exact Finset.sum_congr rfl fun k _ => by rw [h1 k]

theorem combineRelu_rows {N : Nat} (X Ag : FVec Ideal ⟨2, ![N, K]⟩ .f32) (d : FVec Ideal ⟨2, ![N, 1]⟩ .f32)
    (x0 x1 : FVec Ideal ⟨2, ![A, K]⟩ .f32) (x2 : FVec Ideal ⟨2, ![A, 1]⟩ .f32)
    (Ws Wn : FVec Ideal ⟨2, ![K, M]⟩ .f32) (b : FVec Ideal ⟨2, ![1, M]⟩ .f32) (p : Fin A) (r : Fin N) (q : Fin M)
    (h0 : ∀ k : Fin K, x0 (ix2 p k) = X (ix2 r k)) (h1 : ∀ k : Fin K, x1 (ix2 p k) = Ag (ix2 r k))
    (h2 : x2 (ix2 p (0 : Fin 1)) = d (ix2 r (0 : Fin 1))) :
    combineRelu x0 x1 x2 Ws Wn b (ix2 p q) = combineRelu X Ag d Ws Wn b (ix2 r q) :=
  congrArg (max · (Ideal.ofBits .f32 0x00000000#32)) (combine_rows X Ag d x0 x1 x2 Ws Wn b p r q h0 h1 h2)

/-- The kernel body's spelling on a block of rows, as a whole block. -/
theorem body_eq (x0 x1 : FVec Ideal ⟨2, ![A, K]⟩ .f32) (x2 : FVec Ideal ⟨2, ![A, 1]⟩ .f32)
    (x3 x4 : FVec Ideal ⟨2, ![K, M]⟩ .f32) (x5 : FVec Ideal ⟨2, ![1, M]⟩ .f32) (ht : FTy.bf16.bits < FTy.f32.bits)
    (hb2 : (⟨2, ![A, 1]⟩ : Shape).Broadcasts ⟨2, ![A, K]⟩) (hb5 : (⟨2, ![1, M]⟩ : Shape).Broadcasts ⟨2, ![A, M]⟩) :
    addf (addf (FloatOps.matmul (DotDims.plain A K M) none (truncf .bf16 x0 ht) (truncf .bf16 x3 ht) (constant ⟨2, ![A, M]⟩ .f32 0x00000000#32))
            (FloatOps.matmul (DotDims.plain A K M) none (truncf .bf16 (mulf x1 (broadcastTo ⟨2, ![A, K]⟩ x2 hb2)) ht) (truncf .bf16 x4 ht)
              (constant ⟨2, ![A, M]⟩ .f32 0x00000000#32)))
        (broadcastTo ⟨2, ![A, M]⟩ x5 hb5)
      = combine x0 x1 x2 x3 x4 x5 := by
  funext i
  obtain ⟨p, q, rfl⟩ : ∃ (p : Fin A) (q : Fin M), i = ix2 p q := ⟨i 0, i 1, eq_ix2 i⟩
  rw [combine_ix2]
  refine (addf_apply _ _ _).trans (congrArg₂ (· + ·) ((addf_apply _ _ _).trans (congrArg₂ (· + ·) ?_ ?_)) ?_)
  · exact PlainDot.matmul_apply_ix2 none (truncf .bf16 x0 ht) (truncf .bf16 x3 ht) p q
  · refine (PlainDot.matmul_apply_ix2 none _ _ p q).trans (Finset.sum_congr rfl fun k _ => ?_)
    refine congrArg (· * x4 (ix2 k q)) ?_
    show x1 (ix2 p k) * broadcastTo ⟨2, ![A, K]⟩ x2 hb2 (ix2 p k) = _
    rw [Column.broadcastTo_a1_ab_apply]
  · exact broadcastTo_1b_ab_apply x5 hb5 p q

/-- A degree vector `[A]` lifted to the column `[A,1]` and then to `[A,K]`, at `(p, k)`: its entry `p`. -/
theorem degree_cols_apply (dv : FVec Ideal ⟨1, ![A]⟩ .f32) (hd1 : (⟨1, ![A]⟩ : Shape).BroadcastsInDim ⟨2, ![A, 1]⟩ ![0])
    (hd2 : (⟨2, ![A, 1]⟩ : Shape).BroadcastsInDim ⟨2, ![A, K]⟩ ![0, 1]) (p : Fin A) (k : Fin K) :
    broadcastInDim ⟨2, ![A, K]⟩ ![0, 1] hd2 (broadcastInDim ⟨2, ![A, 1]⟩ ![0] hd1 dv) (ix2 p k) = dv (ix1 p) := by
  have hp := p.isLt
  refine (broadcastInDim_apply _ hd2 _ (ix2 p k) (ix2 p (0 : Fin 1)) fun a => ?_).trans
    (broadcastInDim_apply _ hd1 dv (ix2 p (0 : Fin 1)) (ix1 p) fun a => ?_)
  · match a with
    | ⟨0, _⟩ =>
      show p.val = if A = 1 then 0 else p.val
      split
      · omega
      · rfl
    | ⟨1, _⟩ => rfl
  · match a with
    | ⟨0, _⟩ =>
      show p.val = if A = 1 then 0 else p.val
      split
      · omega
      · rfl

/-- The host's spelling, as a whole array: the layer with the degree vector recast to a column and the bias to a row. -/
theorem host_eq (X Ag : FVec Ideal ⟨2, ![A, K]⟩ .f32) (dv : FVec Ideal ⟨1, ![A]⟩ .f32)
    (Ws Wn : FVec Ideal ⟨2, ![K, M]⟩ .f32) (b : FVec Ideal ⟨1, ![M]⟩ .f32)
    (hd1 : (⟨1, ![A]⟩ : Shape).BroadcastsInDim ⟨2, ![A, 1]⟩ ![0])
    (hd2 : (⟨2, ![A, 1]⟩ : Shape).BroadcastsInDim ⟨2, ![A, K]⟩ ![0, 1])
    (h1 : (⟨1, ![M]⟩ : Shape).BroadcastsInDim ⟨2, ![1, M]⟩ ![1])
    (h2 : (⟨2, ![1, M]⟩ : Shape).BroadcastsInDim ⟨2, ![A, M]⟩ ![0, 1])
    (hcd : (⟨1, ![A]⟩ : Shape).ShapeCasts ⟨2, ![A, 1]⟩) (hcb : (⟨1, ![M]⟩ : Shape).ShapeCasts ⟨2, ![1, M]⟩) :
    addf (addf (FloatOps.dotGeneral (DotDims.plain A K M) none .single X Ws)
            (FloatOps.dotGeneral (DotDims.plain A K M) none .single
              (mulf Ag (broadcastInDim ⟨2, ![A, K]⟩ ![0, 1] hd2 (broadcastInDim ⟨2, ![A, 1]⟩ ![0] hd1 dv))) Wn))
        (broadcastInDim ⟨2, ![A, M]⟩ ![0, 1] h2 (broadcastInDim ⟨2, ![1, M]⟩ ![1] h1 b))
      = combine X Ag (shapeCast ⟨2, ![A, 1]⟩ dv hcd) Ws Wn (shapeCast ⟨2, ![1, M]⟩ b hcb) := by
  funext i
  obtain ⟨p, q, rfl⟩ : ∃ (p : Fin A) (q : Fin M), i = ix2 p q := ⟨i 0, i 1, eq_ix2 i⟩
  rw [combine_ix2, Column.shapeCast_a_a1_apply, shapeCast_a_1a_apply]
  refine (addf_apply _ _ _).trans (congrArg₂ (· + ·) ((addf_apply _ _ _).trans (congrArg₂ (· + ·) ?_ ?_)) ?_)
  · exact PlainDot.dotGeneral_apply_ix2 none .single X Ws p q
  · refine (PlainDot.dotGeneral_apply_ix2 none .single _ Wn p q).trans (Finset.sum_congr rfl fun k _ => ?_)
    refine congrArg (· * Wn (ix2 k q)) ?_
    show Ag (ix2 p k) * broadcastInDim ⟨2, ![A, K]⟩ ![0, 1] hd2 (broadcastInDim ⟨2, ![A, 1]⟩ ![0] hd1 dv) (ix2 p k) = _
    rw [degree_cols_apply]
  · exact Affine.bias_rows_apply b h1 h2 p q

/-- The rectifier in its two spellings is `max(·, 0)` entry by entry: the kernel's splat of the scalar zero and the host's
    rank-0 zero lifted to the array. -/
theorem relu_splat {s : Shape} (x : FVec Ideal s .f32) :
    maximumf x (broadcast s (Scalar.ofBits (F := Ideal) .f32 0x00000000#32)) = fun i => max (x i) (Ideal.ofBits .f32 0x00000000#32) := rfl

end Idealize.ShloMosaic.MeanCombine
-- ==== Proof.Region0.lean ====
/-
  What pallas_call 0 leaves in its result array, as one function of the arrays it finds when it is entered.
  The call's grid is 50 points; point `t` stages rows `2000·t … 2000·t + 1999` of the features, of the neighbour sums and of the
  reciprocal-degree column, and the two weight matrices and the bias row whole; its body writes the layer of those blocks
  (`MeanCombine.combineRelu`) into rows `2000·t … 2000·t + 1999` of the result. Entry `(r, j)` of the layer reads row `r` of the
  row-tiled operands only, so the block written at point `t` is block `t` of the layer of the whole arrays; the 50 blocks tile
  the result array, which therefore ends holding that layer.
-/
import proofs.«161846_j61761629716974_1_alg».proof.Proof.FrameKernelIdealP
import proofs.«161846_j61761629716974_1_alg».proof.Proof.LibMeanCombine

set_option maxRecDepth 16384

noncomputable section

namespace Cert.KernelIdeal.Region0

open Cert.KernelIdeal Cert.KernelIdeal.Gen
open Idealize.ShloMosaic Idealize.ShloMosaic.TcCoe Idealize.ShloMosaic.ValueIdx Idealize.SL.Sem

theorem hz : (![0, 0] : Fin 2 → Nat) = fun _ => 0 := funext fun a => by fin_cases a <;> rfl

/-- The body's arithmetic on the staged blocks is the layer of the blocks: the casts between equal shapes drop out, the
    matrix-unit products and the broadcasts are read entry by entry (`MeanCombine.body_eq`). -/
theorem pay_eq (x0 x1 : Vec Ideal S2000x128 .f32) (x2 : Vec Ideal S2000x1 .f32) (x3 x4 : Vec Ideal S128x128 .f32)
    (x5 : Vec Ideal S1x128 .f32) :
    k0_pay1 x0 x1 x2 x3 x4 x5 = MeanCombine.combineRelu (A := 2000) (K := 128) (M := 128) x0 x1 x2 x3 x4 x5 := by
  have e := MeanCombine.body_eq (A := 2000) (K := 128) (M := 128) x0 x1 x2 x3 x4 x5 bitsLt_bf16_f32
    broadcasts_S2000x1_S2000x128 broadcasts_S1x128_S2000x128
  unfold k0_pay1
  simp only [shapeCast_self]
  exact congrArg (fun y : FVec Ideal S2000x128 .f32 => fun i => max (y i) (Ideal.ofBits .f32 0x00000000#32)) e

variable (V : (c : Dev nD) → (b : Ref sig .tc) → Buf (Elt Ideal) ((c : Thread nD τ).loc b))

/-- The layer of the whole arrays the call finds. -/
abbrev G (c : Dev nD) : FVec Ideal ⟨2, ![100000, 128]⟩ .f32 :=
  MeanCombine.combineRelu (A := 100000) (K := 128) (M := 128) (V c main_arg0) (V c main_v22) (V c main_v12) (V c main_arg2) (V c main_arg3) (V c main_v23)

/-- The printed index maps over the grid: the row-tiled windows and the result sit at block `(t, 0)`, the resident ones at
    block `(0, 0)`. -/
theorem idx_facts : ∀ t : Fin cfg0.N, t.val < 50
    ∧ win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = t.val ∧ win0_6.index t (1 : Fin 2) = 0 :=
  (by decide +kernel : ∀ t : Fin grid0.N, _)

/-- A resident window's block is its whole array. -/
theorem blk3 (c : Dev nD) (t : Fin cfg0.N) : (iblk0 V c 3 t : Vec Ideal S128x128 .f32) = V c main_arg2 := by
  obtain ⟨-, -, -, -, -, -, -, e30, e31, -⟩ := idx_facts t
  funext y
  show V c main_arg2 (((cfg0.win 3).blk t).view.emb y) = V c main_arg2 y
  refine congrArg _ (funext fun a => Fin.ext ?_)
  match a with
  | ⟨0, _⟩ => show win0_3.index t (0 : Fin 2) * 128 + 1 * (y 0).val = (y 0).val; omega
  | ⟨1, _⟩ => show win0_3.index t (1 : Fin 2) * 128 + 1 * (y 1).val = (y 1).val; omega
theorem blk4 (c : Dev nD) (t : Fin cfg0.N) : (iblk0 V c 4 t : Vec Ideal S128x128 .f32) = V c main_arg3 := by
  obtain ⟨-, -, -, -, -, -, -, -, -, e40, e41, -⟩ := idx_facts t
  funext y
  show V c main_arg3 (((cfg0.win 4).blk t).view.emb y) = V c main_arg3 y
  refine congrArg _ (funext fun a => Fin.ext ?_)
  match a with
  | ⟨0, _⟩ => show win0_4.index t (0 : Fin 2) * 128 + 1 * (y 0).val = (y 0).val; omega
  | ⟨1, _⟩ => show win0_4.index t (1 : Fin 2) * 128 + 1 * (y 1).val = (y 1).val; omega
theorem blk5 (c : Dev nD) (t : Fin cfg0.N) : (iblk0 V c 5 t : Vec Ideal S1x128 .f32) = V c main_v23 := by
  obtain ⟨-, -, -, -, -, -, -, -, -, -, -, e50, e51, -⟩ := idx_facts t
  funext y
  show V c main_v23 (((cfg0.win 5).blk t).view.emb y) = V c main_v23 y
  refine congrArg _ (funext fun a => Fin.ext ?_)
  match a with
  | ⟨0, _⟩ => show win0_5.index t (0 : Fin 2) * 1 + 1 * (y 0).val = (y 0).val; omega
  | ⟨1, _⟩ => show win0_5.index t (1 : Fin 2) * 128 + 1 * (y 1).val = (y 1).val; omega

/-- Row `p` of a row-tiled window's block at point `t` is row `2000·t + p` of its array. -/
theorem blk0 (c : Dev nD) (t : Fin cfg0.N) (p : Fin 2000) (k : Fin 128) (r : Fin 100000) (hr : r.val = t.val * 2000 + p.val) :
    (iblk0 V c 0 t : Vec Ideal S2000x128 .f32) (ix2 p k) = V c main_arg0 (ix2 r k) := by
  obtain ⟨-, e00, e01, -⟩ := idx_facts t
  show V c main_arg0 (((cfg0.win 0).blk t).view.emb (ix2 p k)) = V c main_arg0 (ix2 r k)
  refine congrArg _ (funext fun a => Fin.ext ?_)
  match a with
  | ⟨0, _⟩ => show win0_0.index t (0 : Fin 2) * 2000 + 1 * p.val = r.val; omega
  | ⟨1, _⟩ => show win0_0.index t (1 : Fin 2) * 128 + 1 * k.val = k.val; omega
theorem blk1 (c : Dev nD) (t : Fin cfg0.N) (p : Fin 2000) (k : Fin 128) (r : Fin 100000) (hr : r.val = t.val * 2000 + p.val) :
    (iblk0 V c 1 t : Vec Ideal S2000x128 .f32) (ix2 p k) = V c main_v22 (ix2 r k) := by
  obtain ⟨-, -, -, e10, e11, -⟩ := idx_facts t
  show V c main_v22 (((cfg0.win 1).blk t).view.emb (ix2 p k)) = V c main_v22 (ix2 r k)
  refine congrArg _ (funext fun a => Fin.ext ?_)
  match a with
  | ⟨0, _⟩ => show win0_1.index t (0 : Fin 2) * 2000 + 1 * p.val = r.val; omega
  | ⟨1, _⟩ => show win0_1.index t (1 : Fin 2) * 128 + 1 * k.val = k.val; omega
theorem blk2 (c : Dev nD) (t : Fin cfg0.N) (p : Fin 2000) (r : Fin 100000) (hr : r.val = t.val * 2000 + p.val) :
    (iblk0 V c 2 t : Vec Ideal S2000x1 .f32) (ix2 p (0 : Fin 1)) = V c main_v12 (ix2 r (0 : Fin 1)) := by
  obtain ⟨-, -, -, -, -, e20, e21, -⟩ := idx_facts t
  show V c main_v12 (((cfg0.win 2).blk t).view.emb (ix2 p (0 : Fin 1))) = V c main_v12 (ix2 r (0 : Fin 1))
  refine congrArg _ (funext fun a => Fin.ext ?_)
  match a with
  | ⟨0, _⟩ => show win0_2.index t (0 : Fin 2) * 2000 + 1 * p.val = r.val; omega
  | ⟨1, _⟩ => show win0_2.index t (1 : Fin 2) * 1 + 1 * 0 = 0; omega

/-- What point `t` writes back is block `t` of the layer of the whole arrays. -/
theorem flushed_eq (c : Dev nD) (t : Fin cfg0.N) :
    (dat0 V c).flushed 6 t = ((cfg0.win 6).blk t).view.read (Elt Ideal) (G V c) := by
  show (cfg0.win 6).cut (grid0.coords t) ((dat0 V c).after 6 t) = _
  rw [after0_6]
  unfold out0_6
  rw [View.canon_unit_zero hz]
  simp only [View.ld_unit_zero (S := S2000x128) hz, View.ld_unit_zero (S := S2000x1) hz, View.ld_unit_zero (S := S128x128) hz,
    View.ld_unit_zero (S := S1x128) hz]
  rw [pay_eq, blk3 V c t, blk4 V c t, blk5 V c t]
  obtain ⟨ht, -, -, -, -, -, -, -, -, -, -, -, -, e60, e61⟩ := idx_facts t
  funext j
  have hj0 : (j 0).val < 2000 := (j 0).isLt
  have hj1 : (j 1).val < 128 := (j 1).isLt
  let p : Fin 2000 := ⟨(j 0).val, hj0⟩
  let q : Fin 128 := ⟨(j 1).val, hj1⟩
  let r : Fin 100000 := ⟨t.val * 2000 + (j 0).val, by omega⟩
  have hj : j = ix2 p q := funext fun a => by match a with | ⟨0, _⟩ => rfl | ⟨1, _⟩ => rfl
  have he : ((cfg0.win 6).blk t).view.emb j = ix2 r q := funext fun a => Fin.ext (by
    match a with
    | ⟨0, _⟩ => show win0_6.index t (0 : Fin 2) * 2000 + 1 * (j 0).val = t.val * 2000 + (j 0).val; omega
    | ⟨1, _⟩ => show win0_6.index t (1 : Fin 2) * 128 + 1 * (j 1).val = (j 1).val; omega)
  show MeanCombine.combineRelu (A := 2000) (K := 128) (M := 128) (iblk0 V c 0 t) (iblk0 V c 1 t) (iblk0 V c 2 t) (V c main_arg2) (V c main_arg3) (V c main_v23) j
    = G V c (((cfg0.win 6).blk t).view.emb j)
  rw [he, hj]
  exact MeanCombine.combineRelu_rows (V c main_arg0) (V c main_v22) (V c main_v12) (iblk0 V c 0 t) (iblk0 V c 1 t) (iblk0 V c 2 t)
    (V c main_arg2) (V c main_arg3) (V c main_v23) p r q (fun k => blk0 V c t p k r rfl) (fun k => blk1 V c t p k r rfl) (blk2 V c t p r rfl)

/-- An index of the result array is in point `t`'s block iff each coordinate is in the block's range on its axis. -/
theorem mem_blk (t : Fin cfg0.N) (i : S100000x128.Idx) :
    i ∈ ((cfg0.win 6).blk t).view.set ↔ ∀ a : Fin 2, win0_6.index t a * S2000x128.size a ≤ (i a).val ∧ (i a).val < win0_6.index t a * S2000x128.size a + S2000x128.size a := by
  show i ∈ ((View.whole main_v24).slice (win0_6.rect t)).set ↔ _
  rw [View.set_slice_whole, Rect.mem_set_unit]
  exact Iff.rfl

/-- The result array after the call: the layer of the arrays the call found (row `r` lies in the block of point `r / 2000`). -/
theorem final (c : Dev nD) : (dat0 V c).arrAt 6 cfg0.N = G V c :=
  (dat0 V c).arrAt_eq_of_cover 6 (G V c) (fun t _ => flushed_eq V c t) fun i => by
    have hi0 : (i 0).val < 100000 := (i 0).isLt
    have hi1 : (i 1).val < 128 := (i 1).isLt
    have hN : cfg0.N = 50 := N_0
    let t : Fin cfg0.N := ⟨(i 0).val / 2000, by rw [hN]; omega⟩
    have htv : t.val = (i 0).val / 2000 := rfl
    obtain ⟨-, -, -, -, -, -, -, -, -, -, -, -, -, e60, e61⟩ := idx_facts t
    refine ⟨t, flush0_6 t, ?_⟩
    rw [mem_blk]
    intro a
    match a with
    | ⟨0, _⟩ => show win0_6.index t (0 : Fin 2) * 2000 ≤ (i 0).val ∧ (i 0).val < win0_6.index t (0 : Fin 2) * 2000 + 2000; omega
    | ⟨1, _⟩ => show win0_6.index t (1 : Fin 2) * 128 ≤ (i 1).val ∧ (i 1).val < win0_6.index t (1 : Fin 2) * 128 + 128; omega

end Cert.KernelIdeal.Region0

end
-- ==== Proof.Region1.lean ====
/-
  What pallas_call 1 leaves in its result array, as one function of the arrays it finds when it is entered.
  The call's grid is 50 points; point `t` stages rows `2000·t … 2000·t + 1999` of the features, of the neighbour sums and of the
  reciprocal-degree column, and the two weight matrices and the bias row whole; its body writes the layer of those blocks
  (`MeanCombine.combineRelu`) into rows `2000·t … 2000·t + 1999` of the result. Entry `(r, j)` of the layer reads row `r` of the
  row-tiled operands only, so the block written at point `t` is block `t` of the layer of the whole arrays; the 50 blocks tile
  the result array, which therefore ends holding that layer.
-/
import proofs.«161846_j61761629716974_1_alg».proof.Proof.FrameKernelIdealP
import proofs.«161846_j61761629716974_1_alg».proof.Proof.LibMeanCombine

set_option maxRecDepth 16384

noncomputable section

namespace Cert.KernelIdeal.Region1

open Cert.KernelIdeal Cert.KernelIdeal.Gen
open Idealize.ShloMosaic Idealize.ShloMosaic.TcCoe Idealize.ShloMosaic.ValueIdx Idealize.SL.Sem

theorem hz : (![0, 0] : Fin 2 → Nat) = fun _ => 0 := funext fun a => by fin_cases a <;> rfl

/-- The body's arithmetic on the staged blocks is the layer of the blocks: the casts between equal shapes drop out, the
    matrix-unit products and the broadcasts are read entry by entry (`MeanCombine.body_eq`). -/
theorem pay_eq (x0 x1 : Vec Ideal S2000x128 .f32) (x2 : Vec Ideal S2000x1 .f32) (x3 x4 : Vec Ideal S128x128 .f32)
    (x5 : Vec Ideal S1x128 .f32) :
    k1_pay1 x0 x1 x2 x3 x4 x5 = MeanCombine.combineRelu (A := 2000) (K := 128) (M := 128) x0 x1 x2 x3 x4 x5 := by
  have e := MeanCombine.body_eq (A := 2000) (K := 128) (M := 128) x0 x1 x2 x3 x4 x5 bitsLt_bf16_f32
    broadcasts_S2000x1_S2000x128 broadcasts_S1x128_S2000x128
  unfold k1_pay1
  simp only [shapeCast_self]
  exact congrArg (fun y : FVec Ideal S2000x128 .f32 => fun i => max (y i) (Ideal.ofBits .f32 0x00000000#32)) e

variable (V : (c : Dev nD) → (b : Ref sig .tc) → Buf (Elt Ideal) ((c : Thread nD τ).loc b))

/-- The layer of the whole arrays the call finds. -/
abbrev G (c : Dev nD) : FVec Ideal ⟨2, ![100000, 128]⟩ .f32 :=
  MeanCombine.combineRelu (A := 100000) (K := 128) (M := 128) (V c main_v24) (V c main_v34) (V c main_v12) (V c main_arg5) (V c main_arg6) (V c main_v35)

/-- The printed index maps over the grid: the row-tiled windows and the result sit at block `(t, 0)`, the resident ones at
    block `(0, 0)`. -/
theorem idx_facts : ∀ t : Fin cfg1.N, t.val < 50
    ∧ win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = t.val ∧ win1_6.index t (1 : Fin 2) = 0 :=
  (by decide +kernel : ∀ t : Fin grid1.N, _)

/-- A resident window's block is its whole array. -/
theorem blk3 (c : Dev nD) (t : Fin cfg1.N) : (iblk1 V c 3 t : Vec Ideal S128x128 .f32) = V c main_arg5 := by
  obtain ⟨-, -, -, -, -, -, -, e30, e31, -⟩ := idx_facts t
  funext y
  show V c main_arg5 (((cfg1.win 3).blk t).view.emb y) = V c main_arg5 y
  refine congrArg _ (funext fun a => Fin.ext ?_)
  match a with
  | ⟨0, _⟩ => show win1_3.index t (0 : Fin 2) * 128 + 1 * (y 0).val = (y 0).val; omega
  | ⟨1, _⟩ => show win1_3.index t (1 : Fin 2) * 128 + 1 * (y 1).val = (y 1).val; omega
theorem blk4 (c : Dev nD) (t : Fin cfg1.N) : (iblk1 V c 4 t : Vec Ideal S128x128 .f32) = V c main_arg6 := by
  obtain ⟨-, -, -, -, -, -, -, -, -, e40, e41, -⟩ := idx_facts t
  funext y
  show V c main_arg6 (((cfg1.win 4).blk t).view.emb y) = V c main_arg6 y
  refine congrArg _ (funext fun a => Fin.ext ?_)
  match a with
  | ⟨0, _⟩ => show win1_4.index t (0 : Fin 2) * 128 + 1 * (y 0).val = (y 0).val; omega
  | ⟨1, _⟩ => show win1_4.index t (1 : Fin 2) * 128 + 1 * (y 1).val = (y 1).val; omega
theorem blk5 (c : Dev nD) (t : Fin cfg1.N) : (iblk1 V c 5 t : Vec Ideal S1x128 .f32) = V c main_v35 := by
  obtain ⟨-, -, -, -, -, -, -, -, -, -, -, e50, e51, -⟩ := idx_facts t
  funext y
  show V c main_v35 (((cfg1.win 5).blk t).view.emb y) = V c main_v35 y
  refine congrArg _ (funext fun a => Fin.ext ?_)
  match a with
  | ⟨0, _⟩ => show win1_5.index t (0 : Fin 2) * 1 + 1 * (y 0).val = (y 0).val; omega
  | ⟨1, _⟩ => show win1_5.index t (1 : Fin 2) * 128 + 1 * (y 1).val = (y 1).val; omega

/-- Row `p` of a row-tiled window's block at point `t` is row `2000·t + p` of its array. -/
theorem blk0 (c : Dev nD) (t : Fin cfg1.N) (p : Fin 2000) (k : Fin 128) (r : Fin 100000) (hr : r.val = t.val * 2000 + p.val) :
    (iblk1 V c 0 t : Vec Ideal S2000x128 .f32) (ix2 p k) = V c main_v24 (ix2 r k) := by
  obtain ⟨-, e00, e01, -⟩ := idx_facts t
  show V c main_v24 (((cfg1.win 0).blk t).view.emb (ix2 p k)) = V c main_v24 (ix2 r k)
  refine congrArg _ (funext fun a => Fin.ext ?_)
  match a with
  | ⟨0, _⟩ => show win1_0.index t (0 : Fin 2) * 2000 + 1 * p.val = r.val; omega
  | ⟨1, _⟩ => show win1_0.index t (1 : Fin 2) * 128 + 1 * k.val = k.val; omega
theorem blk1 (c : Dev nD) (t : Fin cfg1.N) (p : Fin 2000) (k : Fin 128) (r : Fin 100000) (hr : r.val = t.val * 2000 + p.val) :
    (iblk1 V c 1 t : Vec Ideal S2000x128 .f32) (ix2 p k) = V c main_v34 (ix2 r k) := by
  obtain ⟨-, -, -, e10, e11, -⟩ := idx_facts t
  show V c main_v34 (((cfg1.win 1).blk t).view.emb (ix2 p k)) = V c main_v34 (ix2 r k)
  refine congrArg _ (funext fun a => Fin.ext ?_)
  match a with
  | ⟨0, _⟩ => show win1_1.index t (0 : Fin 2) * 2000 + 1 * p.val = r.val; omega
  | ⟨1, _⟩ => show win1_1.index t (1 : Fin 2) * 128 + 1 * k.val = k.val; omega
theorem blk2 (c : Dev nD) (t : Fin cfg1.N) (p : Fin 2000) (r : Fin 100000) (hr : r.val = t.val * 2000 + p.val) :
    (iblk1 V c 2 t : Vec Ideal S2000x1 .f32) (ix2 p (0 : Fin 1)) = V c main_v12 (ix2 r (0 : Fin 1)) := by
  obtain ⟨-, -, -, -, -, e20, e21, -⟩ := idx_facts t
  show V c main_v12 (((cfg1.win 2).blk t).view.emb (ix2 p (0 : Fin 1))) = V c main_v12 (ix2 r (0 : Fin 1))
  refine congrArg _ (funext fun a => Fin.ext ?_)
  match a with
  | ⟨0, _⟩ => show win1_2.index t (0 : Fin 2) * 2000 + 1 * p.val = r.val; omega
  | ⟨1, _⟩ => show win1_2.index t (1 : Fin 2) * 1 + 1 * 0 = 0; omega

/-- What point `t` writes back is block `t` of the layer of the whole arrays. -/
theorem flushed_eq (c : Dev nD) (t : Fin cfg1.N) :
    (dat1 V c).flushed 6 t = ((cfg1.win 6).blk t).view.read (Elt Ideal) (G V c) := by
  show (cfg1.win 6).cut (grid1.coords t) ((dat1 V c).after 6 t) = _
  rw [after1_6]
  unfold out1_6
  rw [View.canon_unit_zero hz]
  simp only [View.ld_unit_zero (S := S2000x128) hz, View.ld_unit_zero (S := S2000x1) hz, View.ld_unit_zero (S := S128x128) hz,
    View.ld_unit_zero (S := S1x128) hz]
  rw [pay_eq, blk3 V c t, blk4 V c t, blk5 V c t]
  obtain ⟨ht, -, -, -, -, -, -, -, -, -, -, -, -, e60, e61⟩ := idx_facts t
  funext j
  have hj0 : (j 0).val < 2000 := (j 0).isLt
  have hj1 : (j 1).val < 128 := (j 1).isLt
  let p : Fin 2000 := ⟨(j 0).val, hj0⟩
  let q : Fin 128 := ⟨(j 1).val, hj1⟩
  let r : Fin 100000 := ⟨t.val * 2000 + (j 0).val, by omega⟩
  have hj : j = ix2 p q := funext fun a => by match a with | ⟨0, _⟩ => rfl | ⟨1, _⟩ => rfl
  have he : ((cfg1.win 6).blk t).view.emb j = ix2 r q := funext fun a => Fin.ext (by
    match a with
    | ⟨0, _⟩ => show win1_6.index t (0 : Fin 2) * 2000 + 1 * (j 0).val = t.val * 2000 + (j 0).val; omega
    | ⟨1, _⟩ => show win1_6.index t (1 : Fin 2) * 128 + 1 * (j 1).val = (j 1).val; omega)
  show MeanCombine.combineRelu (A := 2000) (K := 128) (M := 128) (iblk1 V c 0 t) (iblk1 V c 1 t) (iblk1 V c 2 t) (V c main_arg5) (V c main_arg6) (V c main_v35) j
    = G V c (((cfg1.win 6).blk t).view.emb j)
  rw [he, hj]
  exact MeanCombine.combineRelu_rows (V c main_v24) (V c main_v34) (V c main_v12) (iblk1 V c 0 t) (iblk1 V c 1 t) (iblk1 V c 2 t)
    (V c main_arg5) (V c main_arg6) (V c main_v35) p r q (fun k => blk0 V c t p k r rfl) (fun k => blk1 V c t p k r rfl) (blk2 V c t p r rfl)

/-- An index of the result array is in point `t`'s block iff each coordinate is in the block's range on its axis. -/
theorem mem_blk (t : Fin cfg1.N) (i : S100000x128.Idx) :
    i ∈ ((cfg1.win 6).blk t).view.set ↔ ∀ a : Fin 2, win1_6.index t a * S2000x128.size a ≤ (i a).val ∧ (i a).val < win1_6.index t a * S2000x128.size a + S2000x128.size a := by
  show i ∈ ((View.whole main_v36).slice (win1_6.rect t)).set ↔ _
  rw [View.set_slice_whole, Rect.mem_set_unit]
  exact Iff.rfl

/-- The result array after the call: the layer of the arrays the call found (row `r` lies in the block of point `r / 2000`). -/
theorem final (c : Dev nD) : (dat1 V c).arrAt 6 cfg1.N = G V c :=
  (dat1 V c).arrAt_eq_of_cover 6 (G V c) (fun t _ => flushed_eq V c t) fun i => by
    have hi0 : (i 0).val < 100000 := (i 0).isLt
    have hi1 : (i 1).val < 128 := (i 1).isLt
    have hN : cfg1.N = 50 := N_1
    let t : Fin cfg1.N := ⟨(i 0).val / 2000, by rw [hN]; omega⟩
    have htv : t.val = (i 0).val / 2000 := rfl
    obtain ⟨-, -, -, -, -, -, -, -, -, -, -, -, -, e60, e61⟩ := idx_facts t
    refine ⟨t, flush1_6 t, ?_⟩
    rw [mem_blk]
    intro a
    match a with
    | ⟨0, _⟩ => show win1_6.index t (0 : Fin 2) * 2000 ≤ (i 0).val ∧ (i 0).val < win1_6.index t (0 : Fin 2) * 2000 + 2000; omega
    | ⟨1, _⟩ => show win1_6.index t (1 : Fin 2) * 128 ≤ (i 1).val ∧ (i 1).val < win1_6.index t (1 : Fin 2) * 128 + 128; omega

end Cert.KernelIdeal.Region1

end
-- ==== Proof.Region2.lean ====
/-
  What pallas_call 2 leaves in its result array, as one function of the arrays it finds when it is entered.
  The call's grid is 50 points; point `t` stages rows `2000·t … 2000·t + 1999` of the features, of the neighbour sums and of the
  reciprocal-degree column, and the two weight matrices and the bias row whole; its body writes the layer of those blocks
  (`MeanCombine.combine`) into rows `2000·t … 2000·t + 1999` of the result. Entry `(r, j)` of the layer reads row `r` of the
  row-tiled operands only, so the block written at point `t` is block `t` of the layer of the whole arrays; the 50 blocks tile
  the result array, which therefore ends holding that layer.
-/
import proofs.«161846_j61761629716974_1_alg».proof.Proof.FrameKernelIdealP
import proofs.«161846_j61761629716974_1_alg».proof.Proof.LibMeanCombine

set_option maxRecDepth 16384

noncomputable section

namespace Cert.KernelIdeal.Region2

open Cert.KernelIdeal Cert.KernelIdeal.Gen
open Idealize.ShloMosaic Idealize.ShloMosaic.TcCoe Idealize.ShloMosaic.ValueIdx Idealize.SL.Sem

theorem hz : (![0, 0] : Fin 2 → Nat) = fun _ => 0 := funext fun a => by fin_cases a <;> rfl

/-- The body's arithmetic on the staged blocks is the layer of the blocks: the casts between equal shapes drop out, the
    matrix-unit products and the broadcasts are read entry by entry (`MeanCombine.body_eq`). -/
theorem pay_eq (x0 x1 : Vec Ideal S2000x128 .f32) (x2 : Vec Ideal S2000x1 .f32) (x3 x4 : Vec Ideal S128x64 .f32)
    (x5 : Vec Ideal S1x64 .f32) :
    k2_pay1 x0 x1 x2 x3 x4 x5 = MeanCombine.combine (A := 2000) (K := 128) (M := 64) x0 x1 x2 x3 x4 x5 := by
  have e := MeanCombine.body_eq (A := 2000) (K := 128) (M := 64) x0 x1 x2 x3 x4 x5 bitsLt_bf16_f32
    broadcasts_S2000x1_S2000x128 broadcasts_S1x64_S2000x64
  unfold k2_pay1
  simp only [shapeCast_self]
  exact e

variable (V : (c : Dev nD) → (b : Ref sig .tc) → Buf (Elt Ideal) ((c : Thread nD τ).loc b))

/-- The layer of the whole arrays the call finds. -/
abbrev G (c : Dev nD) : FVec Ideal ⟨2, ![100000, 64]⟩ .f32 :=
  MeanCombine.combine (A := 100000) (K := 128) (M := 64) (V c main_v36) (V c main_v46) (V c main_v12) (V c main_arg8) (V c main_arg9) (V c main_v47)

/-- The printed index maps over the grid: the row-tiled windows and the result sit at block `(t, 0)`, the resident ones at
    block `(0, 0)`. -/
theorem idx_facts : ∀ t : Fin cfg2.N, t.val < 50
    ∧ win2_0.index t (0 : Fin 2) = t.val ∧ win2_0.index t (1 : Fin 2) = 0
    ∧ win2_1.index t (0 : Fin 2) = t.val ∧ win2_1.index t (1 : Fin 2) = 0
    ∧ win2_2.index t (0 : Fin 2) = t.val ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = 0 ∧ win2_5.index t (1 : Fin 2) = 0
    ∧ win2_6.index t (0 : Fin 2) = t.val ∧ win2_6.index t (1 : Fin 2) = 0 :=
  (by decide +kernel : ∀ t : Fin grid2.N, _)

/-- A resident window's block is its whole array. -/
theorem blk3 (c : Dev nD) (t : Fin cfg2.N) : (iblk2 V c 3 t : Vec Ideal S128x64 .f32) = V c main_arg8 := by
  obtain ⟨-, -, -, -, -, -, -, e30, e31, -⟩ := idx_facts t
  funext y
  show V c main_arg8 (((cfg2.win 3).blk t).view.emb y) = V c main_arg8 y
  refine congrArg _ (funext fun a => Fin.ext ?_)
  match a with
  | ⟨0, _⟩ => show win2_3.index t (0 : Fin 2) * 128 + 1 * (y 0).val = (y 0).val; omega
  | ⟨1, _⟩ => show win2_3.index t (1 : Fin 2) * 64 + 1 * (y 1).val = (y 1).val; omega
theorem blk4 (c : Dev nD) (t : Fin cfg2.N) : (iblk2 V c 4 t : Vec Ideal S128x64 .f32) = V c main_arg9 := by
  obtain ⟨-, -, -, -, -, -, -, -, -, e40, e41, -⟩ := idx_facts t
  funext y
  show V c main_arg9 (((cfg2.win 4).blk t).view.emb y) = V c main_arg9 y
  refine congrArg _ (funext fun a => Fin.ext ?_)
  match a with
  | ⟨0, _⟩ => show win2_4.index t (0 : Fin 2) * 128 + 1 * (y 0).val = (y 0).val; omega
  | ⟨1, _⟩ => show win2_4.index t (1 : Fin 2) * 64 + 1 * (y 1).val = (y 1).val; omega
theorem blk5 (c : Dev nD) (t : Fin cfg2.N) : (iblk2 V c 5 t : Vec Ideal S1x64 .f32) = V c main_v47 := by
  obtain ⟨-, -, -, -, -, -, -, -, -, -, -, e50, e51, -⟩ := idx_facts t
  funext y
  show V c main_v47 (((cfg2.win 5).blk t).view.emb y) = V c main_v47 y
  refine congrArg _ (funext fun a => Fin.ext ?_)
  match a with
  | ⟨0, _⟩ => show win2_5.index t (0 : Fin 2) * 1 + 1 * (y 0).val = (y 0).val; omega
  | ⟨1, _⟩ => show win2_5.index t (1 : Fin 2) * 64 + 1 * (y 1).val = (y 1).val; omega

/-- Row `p` of a row-tiled window's block at point `t` is row `2000·t + p` of its array. -/
theorem blk0 (c : Dev nD) (t : Fin cfg2.N) (p : Fin 2000) (k : Fin 128) (r : Fin 100000) (hr : r.val = t.val * 2000 + p.val) :
    (iblk2 V c 0 t : Vec Ideal S2000x128 .f32) (ix2 p k) = V c main_v36 (ix2 r k) := by
  obtain ⟨-, e00, e01, -⟩ := idx_facts t
  show V c main_v36 (((cfg2.win 0).blk t).view.emb (ix2 p k)) = V c main_v36 (ix2 r k)
  refine congrArg _ (funext fun a => Fin.ext ?_)
  match a with
  | ⟨0, _⟩ => show win2_0.index t (0 : Fin 2) * 2000 + 1 * p.val = r.val; omega
  | ⟨1, _⟩ => show win2_0.index t (1 : Fin 2) * 128 + 1 * k.val = k.val; omega
theorem blk1 (c : Dev nD) (t : Fin cfg2.N) (p : Fin 2000) (k : Fin 128) (r : Fin 100000) (hr : r.val = t.val * 2000 + p.val) :
    (iblk2 V c 1 t : Vec Ideal S2000x128 .f32) (ix2 p k) = V c main_v46 (ix2 r k) := by
  obtain ⟨-, -, -, e10, e11, -⟩ := idx_facts t
  show V c main_v46 (((cfg2.win 1).blk t).view.emb (ix2 p k)) = V c main_v46 (ix2 r k)
  refine congrArg _ (funext fun a => Fin.ext ?_)
  match a with
  | ⟨0, _⟩ => show win2_1.index t (0 : Fin 2) * 2000 + 1 * p.val = r.val; omega
  | ⟨1, _⟩ => show win2_1.index t (1 : Fin 2) * 128 + 1 * k.val = k.val; omega
theorem blk2 (c : Dev nD) (t : Fin cfg2.N) (p : Fin 2000) (r : Fin 100000) (hr : r.val = t.val * 2000 + p.val) :
    (iblk2 V c 2 t : Vec Ideal S2000x1 .f32) (ix2 p (0 : Fin 1)) = V c main_v12 (ix2 r (0 : Fin 1)) := by
  obtain ⟨-, -, -, -, -, e20, e21, -⟩ := idx_facts t
  show V c main_v12 (((cfg2.win 2).blk t).view.emb (ix2 p (0 : Fin 1))) = V c main_v12 (ix2 r (0 : Fin 1))
  refine congrArg _ (funext fun a => Fin.ext ?_)
  match a with
  | ⟨0, _⟩ => show win2_2.index t (0 : Fin 2) * 2000 + 1 * p.val = r.val; omega
  | ⟨1, _⟩ => show win2_2.index t (1 : Fin 2) * 1 + 1 * 0 = 0; omega

/-- What point `t` writes back is block `t` of the layer of the whole arrays. -/
theorem flushed_eq (c : Dev nD) (t : Fin cfg2.N) :
    (dat2 V c).flushed 6 t = ((cfg2.win 6).blk t).view.read (Elt Ideal) (G V c) := by
  show (cfg2.win 6).cut (grid2.coords t) ((dat2 V c).after 6 t) = _
  rw [after2_6]
  unfold out2_6
  rw [View.canon_unit_zero hz]
  simp only [View.ld_unit_zero (S := S2000x128) hz, View.ld_unit_zero (S := S2000x1) hz, View.ld_unit_zero (S := S128x64) hz,
    View.ld_unit_zero (S := S1x64) hz]
  rw [pay_eq, blk3 V c t, blk4 V c t, blk5 V c t]
  obtain ⟨ht, -, -, -, -, -, -, -, -, -, -, -, -, e60, e61⟩ := idx_facts t
  funext j
  have hj0 : (j 0).val < 2000 := (j 0).isLt
  have hj1 : (j 1).val < 64 := (j 1).isLt
  let p : Fin 2000 := ⟨(j 0).val, hj0⟩
  let q : Fin 64 := ⟨(j 1).val, hj1⟩
  let r : Fin 100000 := ⟨t.val * 2000 + (j 0).val, by omega⟩
  have hj : j = ix2 p q := funext fun a => by match a with | ⟨0, _⟩ => rfl | ⟨1, _⟩ => rfl
  have he : ((cfg2.win 6).blk t).view.emb j = ix2 r q := funext fun a => Fin.ext (by
    match a with
    | ⟨0, _⟩ => show win2_6.index t (0 : Fin 2) * 2000 + 1 * (j 0).val = t.val * 2000 + (j 0).val; omega
    | ⟨1, _⟩ => show win2_6.index t (1 : Fin 2) * 64 + 1 * (j 1).val = (j 1).val; omega)
  show MeanCombine.combine (A := 2000) (K := 128) (M := 64) (iblk2 V c 0 t) (iblk2 V c 1 t) (iblk2 V c 2 t) (V c main_arg8) (V c main_arg9) (V c main_v47) j
    = G V c (((cfg2.win 6).blk t).view.emb j)
  rw [he, hj]
  exact MeanCombine.combine_rows (V c main_v36) (V c main_v46) (V c main_v12) (iblk2 V c 0 t) (iblk2 V c 1 t) (iblk2 V c 2 t)
    (V c main_arg8) (V c main_arg9) (V c main_v47) p r q (fun k => blk0 V c t p k r rfl) (fun k => blk1 V c t p k r rfl) (blk2 V c t p r rfl)

/-- An index of the result array is in point `t`'s block iff each coordinate is in the block's range on its axis. -/
theorem mem_blk (t : Fin cfg2.N) (i : S100000x64.Idx) :
    i ∈ ((cfg2.win 6).blk t).view.set ↔ ∀ a : Fin 2, win2_6.index t a * S2000x64.size a ≤ (i a).val ∧ (i a).val < win2_6.index t a * S2000x64.size a + S2000x64.size a := by
  show i ∈ ((View.whole main_v48).slice (win2_6.rect t)).set ↔ _
  rw [View.set_slice_whole, Rect.mem_set_unit]
  exact Iff.rfl

/-- The result array after the call: the layer of the arrays the call found (row `r` lies in the block of point `r / 2000`). -/
theorem final (c : Dev nD) : (dat2 V c).arrAt 6 cfg2.N = G V c :=
  (dat2 V c).arrAt_eq_of_cover 6 (G V c) (fun t _ => flushed_eq V c t) fun i => by
    have hi0 : (i 0).val < 100000 := (i 0).isLt
    have hi1 : (i 1).val < 64 := (i 1).isLt
    have hN : cfg2.N = 50 := N_2
    let t : Fin cfg2.N := ⟨(i 0).val / 2000, by rw [hN]; omega⟩
    have htv : t.val = (i 0).val / 2000 := rfl
    obtain ⟨-, -, -, -, -, -, -, -, -, -, -, -, -, e60, e61⟩ := idx_facts t
    refine ⟨t, flush2_6 t, ?_⟩
    rw [mem_blk]
    intro a
    match a with
    | ⟨0, _⟩ => show win2_6.index t (0 : Fin 2) * 2000 ≤ (i 0).val ∧ (i 0).val < win2_6.index t (0 : Fin 2) * 2000 + 2000; omega
    | ⟨1, _⟩ => show win2_6.index t (1 : Fin 2) * 64 ≤ (i 1).val ∧ (i 1).val < win2_6.index t (1 : Fin 2) * 64 + 64; omega

end Cert.KernelIdeal.Region2

end
-- ==== Proof.HostStretch.lean ====
/-
  The host side of the idealized kernel, between its pallas_calls, as pure functions of the buffers it reads.
  The program's host operations come in three stretches. The first cuts the edge list into its source row and its
  destination row, counts each node's incoming edges by a scatter-add of ones, takes the reciprocal of max(count, 1)
  and recasts it as a column, gathers the features along the source row and scatter-adds them along the destination
  row (the neighbour sums), and recasts the first bias as a row. The second and the third repeat the gather and the
  scatter-add on the previous layer's result and recast the next bias. The index arithmetic on the source row
  (a negative index moved up by the node count) and the gather and scatter themselves are the same operations in
  the reference, so they are kept here as opaque functions `src`, `dst`, `invDeg`, `agg`: nothing below opens them.
  Each lemma reads one buffer after one stretch, from ANY contents `W` before it: a buffer the stretch writes holds the
  stretch's function of the buffers read, and a buffer it does not write holds what it held.
-/
import proofs.«161846_j61761629716974_1_alg».proof.Proof.LaunchKernelIdealP
import Idealize.ShloMosaic.Lib.StableHlo.Run
import Idealize.ShloMosaic.PureOps.Ideal

set_option maxRecDepth 16384

noncomputable section

namespace Cert.KernelIdeal.Host

open Cert.KernelIdeal Cert.KernelIdeal.Gen
open Idealize.ShloMosaic Idealize.ShloMosaic.TcCoe Idealize.SL.Sem Idealize.ShloMosaic.StableHlo

/-- The edges' source nodes: row 0 of the edge list. -/
def src (e : IVec S2x1600000 32) : IVec S1600000 32 :=
  shapeCast S1600000 (extractStridedSlice S1x1600000 ![0, 0] e slices_S2x1600000_S1x1600000_0_0) shapeCasts_S1x1600000_S1600000

/-- The edges' destination nodes: row 1 of the edge list. -/
def dst (e : IVec S2x1600000 32) : IVec S1600000 32 :=
  shapeCast S1600000 (extractStridedSlice S1x1600000 ![1, 0] e slices_S2x1600000_S1x1600000_1_0) shapeCasts_S1x1600000_S1600000

/-- Each node's reciprocal in-degree `1 / max(#incoming edges, 1)`. -/
def invDeg (d : IVec S1600000 32) : FVec Ideal S100000 .f32 :=
  Host.divf (F := Ideal) (broadcastInDim S100000 ![] bcast_S_S100000 (constant (F := Ideal) S_ .f32 0x3F800000#32))
    (maximumf
      (Host.scatterAdd (F := Ideal) scatter_S100000_S1600000x1_S1600000_n_0_0_1
        (broadcastInDim S100000 ![] bcast_S_S100000 (constant (F := Ideal) S_ .f32 0x00000000#32))
        (broadcastInDim S1600000x1 ![0] bcast_S1600000_S1600000x1_0 d)
        (broadcastInDim S1600000 ![] bcast_S_S1600000 (constant (F := Ideal) S_ .f32 0x3F800000#32)))
      (broadcastInDim S100000 ![] bcast_S_S100000 (constant (F := Ideal) S_ .f32 0x3F800000#32)))

/-- The neighbour sums: row `v` is the sum over the edges into `v` of the source node's row of `h`. -/
def agg (s d : IVec S1600000 32) (h : FVec Ideal S100000x128 .f32) : FVec Ideal S100000x128 .f32 :=
  Host.scatterAdd (F := Ideal) scatter_S100000x128_S1600000x1_S1600000x128_1_0_0_1
    (broadcastInDim S100000x128 ![] bcast_S_S100000x128 (constant (F := Ideal) S_ .f32 0x00000000#32))
    (broadcastInDim S1600000x1 ![0] bcast_S1600000_S1600000x1_0 d)
    (Host.gather gather_S100000x128_S1600000x1_S1600000x128_1_0_n_n_0_1_1128 h
      (broadcastInDim S1600000x1 ![0] bcast_S1600000_S1600000x1_0
        (select (cmpi .slt s (broadcastInDim S1600000 ![] bcast_S_S1600000 (constantI S_ 32 0#32)))
          (addi s (broadcastInDim S1600000 ![] bcast_S_S1600000 (constantI S_ 32 100000#32))) s)))

variable (W : Valuation τ sig (Elt Ideal))

/-! ## The first stretch -/

theorem s0_v1 : after (hostOps0 (F := Ideal)) W (Proc.devRef .tc main_v1) = src (W (Proc.devRef .tc main_arg1)) := by
  after_results_simp <;> rfl
theorem s0_v3 : after (hostOps0 (F := Ideal)) W (Proc.devRef .tc main_v3) = dst (W (Proc.devRef .tc main_arg1)) := by
  after_results_simp <;> rfl
theorem s0_v12 : after (hostOps0 (F := Ideal)) W (Proc.devRef .tc main_v12)
    = shapeCast S100000x1 (invDeg (dst (W (Proc.devRef .tc main_arg1)))) shapeCasts_S100000_S100000x1 := by
  after_results_simp <;> rfl
theorem s0_v22 : after (hostOps0 (F := Ideal)) W (Proc.devRef .tc main_v22)
    = agg (src (W (Proc.devRef .tc main_arg1))) (dst (W (Proc.devRef .tc main_arg1))) (W (Proc.devRef .tc main_arg0)) := by
  after_results_simp <;> rfl
theorem s0_v23 : after (hostOps0 (F := Ideal)) W (Proc.devRef .tc main_v23)
    = shapeCast S1x128 (W (Proc.devRef .tc main_arg4)) shapeCasts_S128_S1x128 := by
  after_results_simp <;> rfl
theorem s0_arg0 : after (hostOps0 (F := Ideal)) W (Proc.devRef .tc main_arg0) = W (Proc.devRef .tc main_arg0) := by
  after_results_simp <;> rfl
theorem s0_arg2 : after (hostOps0 (F := Ideal)) W (Proc.devRef .tc main_arg2) = W (Proc.devRef .tc main_arg2) := by
  after_results_simp <;> rfl
theorem s0_arg3 : after (hostOps0 (F := Ideal)) W (Proc.devRef .tc main_arg3) = W (Proc.devRef .tc main_arg3) := by
  after_results_simp <;> rfl
theorem s0_arg5 : after (hostOps0 (F := Ideal)) W (Proc.devRef .tc main_arg5) = W (Proc.devRef .tc main_arg5) := by
  after_results_simp <;> rfl
theorem s0_arg6 : after (hostOps0 (F := Ideal)) W (Proc.devRef .tc main_arg6) = W (Proc.devRef .tc main_arg6) := by
  after_results_simp <;> rfl
theorem s0_arg7 : after (hostOps0 (F := Ideal)) W (Proc.devRef .tc main_arg7) = W (Proc.devRef .tc main_arg7) := by
  after_results_simp <;> rfl
theorem s0_arg8 : after (hostOps0 (F := Ideal)) W (Proc.devRef .tc main_arg8) = W (Proc.devRef .tc main_arg8) := by
  after_results_simp <;> rfl
theorem s0_arg9 : after (hostOps0 (F := Ideal)) W (Proc.devRef .tc main_arg9) = W (Proc.devRef .tc main_arg9) := by
  after_results_simp <;> rfl
theorem s0_arg10 : after (hostOps0 (F := Ideal)) W (Proc.devRef .tc main_arg10) = W (Proc.devRef .tc main_arg10) := by
  after_results_simp <;> rfl

/-! ## The second stretch -/

theorem s1_v34 : after (hostOps1 (F := Ideal)) W (Proc.devRef .tc main_v34)
    = agg (W (Proc.devRef .tc main_v1)) (W (Proc.devRef .tc main_v3)) (W (Proc.devRef .tc main_v24)) := by
  after_results <;> rfl
theorem s1_v35 : after (hostOps1 (F := Ideal)) W (Proc.devRef .tc main_v35)
    = shapeCast S1x128 (W (Proc.devRef .tc main_arg7)) shapeCasts_S128_S1x128 := by
  after_results <;> rfl
theorem s1_v24 : after (hostOps1 (F := Ideal)) W (Proc.devRef .tc main_v24) = W (Proc.devRef .tc main_v24) := by
  after_results <;> rfl
theorem s1_v12 : after (hostOps1 (F := Ideal)) W (Proc.devRef .tc main_v12) = W (Proc.devRef .tc main_v12) := by
  after_results <;> rfl
theorem s1_v1 : after (hostOps1 (F := Ideal)) W (Proc.devRef .tc main_v1) = W (Proc.devRef .tc main_v1) := by
  after_results <;> rfl
theorem s1_v3 : after (hostOps1 (F := Ideal)) W (Proc.devRef .tc main_v3) = W (Proc.devRef .tc main_v3) := by
  after_results <;> rfl
theorem s1_arg5 : after (hostOps1 (F := Ideal)) W (Proc.devRef .tc main_arg5) = W (Proc.devRef .tc main_arg5) := by
  after_results <;> rfl
theorem s1_arg6 : after (hostOps1 (F := Ideal)) W (Proc.devRef .tc main_arg6) = W (Proc.devRef .tc main_arg6) := by
  after_results <;> rfl
theorem s1_arg8 : after (hostOps1 (F := Ideal)) W (Proc.devRef .tc main_arg8) = W (Proc.devRef .tc main_arg8) := by
  after_results <;> rfl
theorem s1_arg9 : after (hostOps1 (F := Ideal)) W (Proc.devRef .tc main_arg9) = W (Proc.devRef .tc main_arg9) := by
  after_results <;> rfl
theorem s1_arg10 : after (hostOps1 (F := Ideal)) W (Proc.devRef .tc main_arg10) = W (Proc.devRef .tc main_arg10) := by
  after_results <;> rfl

/-! ## The third stretch -/

theorem s2_v46 : after (hostOps2 (F := Ideal)) W (Proc.devRef .tc main_v46)
    = agg (W (Proc.devRef .tc main_v1)) (W (Proc.devRef .tc main_v3)) (W (Proc.devRef .tc main_v36)) := by
  after_results <;> rfl
theorem s2_v47 : after (hostOps2 (F := Ideal)) W (Proc.devRef .tc main_v47)
    = shapeCast S1x64 (W (Proc.devRef .tc main_arg10)) shapeCasts_S64_S1x64 := by
  after_results <;> rfl
theorem s2_v36 : after (hostOps2 (F := Ideal)) W (Proc.devRef .tc main_v36) = W (Proc.devRef .tc main_v36) := by
  after_results <;> rfl
theorem s2_v12 : after (hostOps2 (F := Ideal)) W (Proc.devRef .tc main_v12) = W (Proc.devRef .tc main_v12) := by
  after_results <;> rfl
theorem s2_arg8 : after (hostOps2 (F := Ideal)) W (Proc.devRef .tc main_arg8) = W (Proc.devRef .tc main_arg8) := by
  after_results <;> rfl
theorem s2_arg9 : after (hostOps2 (F := Ideal)) W (Proc.devRef .tc main_arg9) = W (Proc.devRef .tc main_arg9) := by
  after_results <;> rfl

end Cert.KernelIdeal.Host

end
-- ==== Proof.Spec.lean ====
/-
  The network both programs compute, over the extended reals, as one function of the eleven argument arrays: three
  graph layers, each the combination `Σ_k X(r,k)·Ws(k,j) + Σ_k (Ag(r,k)·d(r))·Wn(k,j) + b(j)` of a node's features `X`, its
  neighbour sums `Ag = agg X` and its reciprocal in-degree `d`, the first two followed by the rectifier. The gather and the
  scatter-add behind `agg` and the degree count behind `d` stay closed (they are the same host operations in both programs).
-/
import proofs.«161846_j61761629716974_1_alg».proof.Proof.HostStretch
import proofs.«161846_j61761629716974_1_alg».proof.Proof.LibMeanCombine

noncomputable section

namespace Cert.KernelIdeal.Host

open Cert.KernelIdeal Cert.KernelIdeal.Gen Idealize.ShloMosaic

/-- The reciprocal in-degrees as a column. -/
def degCol (d : IVec S1600000 32) : FVec Ideal S100000x1 .f32 := shapeCast S100000x1 (invDeg d) shapeCasts_S100000_S100000x1

/-- A layer with the rectifier, 128 features in and out, on all nodes. -/
def layerRelu (s d : IVec S1600000 32) (X : FVec Ideal S100000x128 .f32) (Ws Wn : FVec Ideal S128x128 .f32) (b : FVec Ideal S128 .f32) :
    FVec Ideal S100000x128 .f32 :=
  MeanCombine.combineRelu (A := 100000) (K := 128) (M := 128) X (agg s d X) (degCol d) Ws Wn (shapeCast S1x128 b shapeCasts_S128_S1x128)

/-- The last layer, 128 features in and 64 out, no rectifier. -/
def layerLin (s d : IVec S1600000 32) (X : FVec Ideal S100000x128 .f32) (Ws Wn : FVec Ideal S128x64 .f32) (b : FVec Ideal S64 .f32) :
    FVec Ideal S100000x64 .f32 :=
  MeanCombine.combine (A := 100000) (K := 128) (M := 64) X (agg s d X) (degCol d) Ws Wn (shapeCast S1x64 b shapeCasts_S64_S1x64)

/-- The three layers in sequence. -/
def out (e : IVec S2x1600000 32) (a0 : FVec Ideal S100000x128 .f32) (w2 w3 : FVec Ideal S128x128 .f32) (b4 : FVec Ideal S128 .f32)
    (w5 w6 : FVec Ideal S128x128 .f32) (b7 : FVec Ideal S128 .f32) (w8 w9 : FVec Ideal S128x64 .f32) (b10 : FVec Ideal S64 .f32) :
    FVec Ideal S100000x64 .f32 :=
  layerLin (src e) (dst e) (layerRelu (src e) (dst e) (layerRelu (src e) (dst e) a0 w2 w3 b4) w5 w6 b7) w8 w9 b10

end Cert.KernelIdeal.Host

end
-- ==== Proof.KernelValue.lean ====
/-
  The idealized kernel's result buffer, read back through the run's boundaries to the launch memory.
  The run's contents at its six boundaries are a fold: a host stretch's operations over the contents before it, a
  pallas_call's result array at the layer of the arrays it found (Region0 … Region2), every other buffer kept. Reading the
  result buffer back through the fold, boundary by boundary — the edge rows, the degree column and the argument arrays pass
  every later boundary untouched — gives the three layers in sequence of the argument arrays as launched.
-/
import proofs.«161846_j61761629716974_1_alg».proof.Proof.Region0
import proofs.«161846_j61761629716974_1_alg».proof.Proof.Region1
import proofs.«161846_j61761629716974_1_alg».proof.Proof.Region2
import proofs.«161846_j61761629716974_1_alg».proof.Proof.Spec

set_option maxRecDepth 16384

noncomputable section

namespace Cert.KernelIdeal.Result

open Cert.KernelIdeal Cert.KernelIdeal.Gen
open Idealize.ShloMosaic Idealize.ShloMosaic.TcCoe Idealize.SL.Sem

variable (m : (ℓ : Loc nD τ sig) → Buf (Elt Ideal) ℓ) (ρ : Dev nD → PrngReg) (c : Dev nD)

/-! ## Entering the first call: the first stretch over the launch memory -/

theorem V1_arg0 : V1 m ρ c main_arg0 = (m ((c : Thread nD τ).loc main_arg0)) := Host.s0_arg0 (W0 m ρ c)
theorem V1_arg2 : V1 m ρ c main_arg2 = (m ((c : Thread nD τ).loc main_arg2)) := Host.s0_arg2 (W0 m ρ c)
theorem V1_arg3 : V1 m ρ c main_arg3 = (m ((c : Thread nD τ).loc main_arg3)) := Host.s0_arg3 (W0 m ρ c)
theorem V1_v22 : V1 m ρ c main_v22 = Host.agg (Host.src (m ((c : Thread nD τ).loc main_arg1))) (Host.dst (m ((c : Thread nD τ).loc main_arg1))) (m ((c : Thread nD τ).loc main_arg0)) := Host.s0_v22 (W0 m ρ c)
theorem V1_v12 : V1 m ρ c main_v12 = Host.degCol (Host.dst (m ((c : Thread nD τ).loc main_arg1))) := Host.s0_v12 (W0 m ρ c)
theorem V1_v23 : V1 m ρ c main_v23 = shapeCast S1x128 (m ((c : Thread nD τ).loc main_arg4)) shapeCasts_S128_S1x128 := Host.s0_v23 (W0 m ρ c)

/-! ## After the first call -/

/-- The first call's result: the first layer of the arguments. -/
theorem W2_v24 : W2 m ρ c (Proc.devRef .tc main_v24) = (Host.layerRelu (Host.src (m ((c : Thread nD τ).loc main_arg1))) (Host.dst (m ((c : Thread nD τ).loc main_arg1))) (m ((c : Thread nD τ).loc main_arg0)) (m ((c : Thread nD τ).loc main_arg2)) (m ((c : Thread nD τ).loc main_arg3)) (m ((c : Thread nD τ).loc main_arg4))) := by
  refine (W2_arr m ρ c 6).trans ((Region0.final (V1 m ρ) c).trans ?_)
  show MeanCombine.combineRelu (A := 100000) (K := 128) (M := 128) (V1 m ρ c main_arg0) (V1 m ρ c main_v22) (V1 m ρ c main_v12)
    (V1 m ρ c main_arg2) (V1 m ρ c main_arg3) (V1 m ρ c main_v23) = _
  rw [V1_arg0 m ρ c, V1_v22 m ρ c, V1_v12 m ρ c, V1_arg2 m ρ c, V1_arg3 m ρ c, V1_v23 m ρ c]
  rfl
theorem W2_v1 : W2 m ρ c (Proc.devRef .tc main_v1) = (Host.src (m ((c : Thread nD τ).loc main_arg1))) := (W2_of_ne m ρ c main_v1 (by decide)).trans (Host.s0_v1 (W0 m ρ c))
theorem W2_v3 : W2 m ρ c (Proc.devRef .tc main_v3) = (Host.dst (m ((c : Thread nD τ).loc main_arg1))) := (W2_of_ne m ρ c main_v3 (by decide)).trans (Host.s0_v3 (W0 m ρ c))
theorem W2_v12 : W2 m ρ c (Proc.devRef .tc main_v12) = Host.degCol (Host.dst (m ((c : Thread nD τ).loc main_arg1))) :=
  ((W2_arr m ρ c 2).trans (((dat0 (V1 m ρ) c).arrAt_in 2 rfl _).trans (A_eq0 (V1 m ρ) c 2))).trans (V1_v12 m ρ c)
theorem W2_arg5 : W2 m ρ c (Proc.devRef .tc main_arg5) = (m ((c : Thread nD τ).loc main_arg5)) := (W2_of_ne m ρ c main_arg5 (by decide)).trans (Host.s0_arg5 (W0 m ρ c))
theorem W2_arg6 : W2 m ρ c (Proc.devRef .tc main_arg6) = (m ((c : Thread nD τ).loc main_arg6)) := (W2_of_ne m ρ c main_arg6 (by decide)).trans (Host.s0_arg6 (W0 m ρ c))
theorem W2_arg7 : W2 m ρ c (Proc.devRef .tc main_arg7) = (m ((c : Thread nD τ).loc main_arg7)) := (W2_of_ne m ρ c main_arg7 (by decide)).trans (Host.s0_arg7 (W0 m ρ c))
theorem W2_arg8 : W2 m ρ c (Proc.devRef .tc main_arg8) = (m ((c : Thread nD τ).loc main_arg8)) := (W2_of_ne m ρ c main_arg8 (by decide)).trans (Host.s0_arg8 (W0 m ρ c))
theorem W2_arg9 : W2 m ρ c (Proc.devRef .tc main_arg9) = (m ((c : Thread nD τ).loc main_arg9)) := (W2_of_ne m ρ c main_arg9 (by decide)).trans (Host.s0_arg9 (W0 m ρ c))
theorem W2_arg10 : W2 m ρ c (Proc.devRef .tc main_arg10) = (m ((c : Thread nD τ).loc main_arg10)) := (W2_of_ne m ρ c main_arg10 (by decide)).trans (Host.s0_arg10 (W0 m ρ c))

/-! ## Entering the second call: the second stretch over those contents -/

theorem V3_v24 : V3 m ρ c main_v24 = (Host.layerRelu (Host.src (m ((c : Thread nD τ).loc main_arg1))) (Host.dst (m ((c : Thread nD τ).loc main_arg1))) (m ((c : Thread nD τ).loc main_arg0)) (m ((c : Thread nD τ).loc main_arg2)) (m ((c : Thread nD τ).loc main_arg3)) (m ((c : Thread nD τ).loc main_arg4))) := (Host.s1_v24 (W2 m ρ c)).trans (W2_v24 m ρ c)
theorem V3_v34 : V3 m ρ c main_v34 = Host.agg (Host.src (m ((c : Thread nD τ).loc main_arg1))) (Host.dst (m ((c : Thread nD τ).loc main_arg1))) (Host.layerRelu (Host.src (m ((c : Thread nD τ).loc main_arg1))) (Host.dst (m ((c : Thread nD τ).loc main_arg1))) (m ((c : Thread nD τ).loc main_arg0)) (m ((c : Thread nD τ).loc main_arg2)) (m ((c : Thread nD τ).loc main_arg3)) (m ((c : Thread nD τ).loc main_arg4))) :=
  (Host.s1_v34 (W2 m ρ c)).trans (by rw [W2_v1 m ρ c, W2_v3 m ρ c, W2_v24 m ρ c])
theorem V3_v12 : V3 m ρ c main_v12 = Host.degCol (Host.dst (m ((c : Thread nD τ).loc main_arg1))) := (Host.s1_v12 (W2 m ρ c)).trans (W2_v12 m ρ c)
theorem V3_arg5 : V3 m ρ c main_arg5 = (m ((c : Thread nD τ).loc main_arg5)) := (Host.s1_arg5 (W2 m ρ c)).trans (W2_arg5 m ρ c)
theorem V3_arg6 : V3 m ρ c main_arg6 = (m ((c : Thread nD τ).loc main_arg6)) := (Host.s1_arg6 (W2 m ρ c)).trans (W2_arg6 m ρ c)
theorem V3_v35 : V3 m ρ c main_v35 = shapeCast S1x128 (m ((c : Thread nD τ).loc main_arg7)) shapeCasts_S128_S1x128 :=
  (Host.s1_v35 (W2 m ρ c)).trans (by rw [W2_arg7 m ρ c])

/-! ## After the second call -/

/-- The second call's result: the second layer of the first. -/
theorem W4_v36 : W4 m ρ c (Proc.devRef .tc main_v36) = (Host.layerRelu (Host.src (m ((c : Thread nD τ).loc main_arg1))) (Host.dst (m ((c : Thread nD τ).loc main_arg1))) (Host.layerRelu (Host.src (m ((c : Thread nD τ).loc main_arg1))) (Host.dst (m ((c : Thread nD τ).loc main_arg1))) (m ((c : Thread nD τ).loc main_arg0)) (m ((c : Thread nD τ).loc main_arg2)) (m ((c : Thread nD τ).loc main_arg3)) (m ((c : Thread nD τ).loc main_arg4))) (m ((c : Thread nD τ).loc main_arg5)) (m ((c : Thread nD τ).loc main_arg6)) (m ((c : Thread nD τ).loc main_arg7))) := by
  refine (W4_arr m ρ c 6).trans ((Region1.final (V3 m ρ) c).trans ?_)
  show MeanCombine.combineRelu (A := 100000) (K := 128) (M := 128) (V3 m ρ c main_v24) (V3 m ρ c main_v34) (V3 m ρ c main_v12)
    (V3 m ρ c main_arg5) (V3 m ρ c main_arg6) (V3 m ρ c main_v35) = _
  rw [V3_v24 m ρ c, V3_v34 m ρ c, V3_v12 m ρ c, V3_arg5 m ρ c, V3_arg6 m ρ c, V3_v35 m ρ c]
  rfl
theorem W4_v1 : W4 m ρ c (Proc.devRef .tc main_v1) = (Host.src (m ((c : Thread nD τ).loc main_arg1))) :=
  (W4_of_ne m ρ c main_v1 (by decide)).trans ((Host.s1_v1 (W2 m ρ c)).trans (W2_v1 m ρ c))
theorem W4_v3 : W4 m ρ c (Proc.devRef .tc main_v3) = (Host.dst (m ((c : Thread nD τ).loc main_arg1))) :=
  (W4_of_ne m ρ c main_v3 (by decide)).trans ((Host.s1_v3 (W2 m ρ c)).trans (W2_v3 m ρ c))
theorem W4_v12 : W4 m ρ c (Proc.devRef .tc main_v12) = Host.degCol (Host.dst (m ((c : Thread nD τ).loc main_arg1))) :=
  ((W4_arr m ρ c 2).trans (((dat1 (V3 m ρ) c).arrAt_in 2 rfl _).trans (A_eq1 (V3 m ρ) c 2))).trans (V3_v12 m ρ c)
theorem W4_arg8 : W4 m ρ c (Proc.devRef .tc main_arg8) = (m ((c : Thread nD τ).loc main_arg8)) :=
  (W4_of_ne m ρ c main_arg8 (by decide)).trans ((Host.s1_arg8 (W2 m ρ c)).trans (W2_arg8 m ρ c))
theorem W4_arg9 : W4 m ρ c (Proc.devRef .tc main_arg9) = (m ((c : Thread nD τ).loc main_arg9)) :=
  (W4_of_ne m ρ c main_arg9 (by decide)).trans ((Host.s1_arg9 (W2 m ρ c)).trans (W2_arg9 m ρ c))
theorem W4_arg10 : W4 m ρ c (Proc.devRef .tc main_arg10) = (m ((c : Thread nD τ).loc main_arg10)) :=
  (W4_of_ne m ρ c main_arg10 (by decide)).trans ((Host.s1_arg10 (W2 m ρ c)).trans (W2_arg10 m ρ c))

/-! ## Entering the third call: the third stretch over those contents -/

theorem V5_v36 : V5 m ρ c main_v36 = (Host.layerRelu (Host.src (m ((c : Thread nD τ).loc main_arg1))) (Host.dst (m ((c : Thread nD τ).loc main_arg1))) (Host.layerRelu (Host.src (m ((c : Thread nD τ).loc main_arg1))) (Host.dst (m ((c : Thread nD τ).loc main_arg1))) (m ((c : Thread nD τ).loc main_arg0)) (m ((c : Thread nD τ).loc main_arg2)) (m ((c : Thread nD τ).loc main_arg3)) (m ((c : Thread nD τ).loc main_arg4))) (m ((c : Thread nD τ).loc main_arg5)) (m ((c : Thread nD τ).loc main_arg6)) (m ((c : Thread nD τ).loc main_arg7))) := (Host.s2_v36 (W4 m ρ c)).trans (W4_v36 m ρ c)
theorem V5_v46 : V5 m ρ c main_v46 = Host.agg (Host.src (m ((c : Thread nD τ).loc main_arg1))) (Host.dst (m ((c : Thread nD τ).loc main_arg1))) (Host.layerRelu (Host.src (m ((c : Thread nD τ).loc main_arg1))) (Host.dst (m ((c : Thread nD τ).loc main_arg1))) (Host.layerRelu (Host.src (m ((c : Thread nD τ).loc main_arg1))) (Host.dst (m ((c : Thread nD τ).loc main_arg1))) (m ((c : Thread nD τ).loc main_arg0)) (m ((c : Thread nD τ).loc main_arg2)) (m ((c : Thread nD τ).loc main_arg3)) (m ((c : Thread nD τ).loc main_arg4))) (m ((c : Thread nD τ).loc main_arg5)) (m ((c : Thread nD τ).loc main_arg6)) (m ((c : Thread nD τ).loc main_arg7))) :=
  (Host.s2_v46 (W4 m ρ c)).trans (by rw [W4_v1 m ρ c, W4_v3 m ρ c, W4_v36 m ρ c])
theorem V5_v12 : V5 m ρ c main_v12 = Host.degCol (Host.dst (m ((c : Thread nD τ).loc main_arg1))) := (Host.s2_v12 (W4 m ρ c)).trans (W4_v12 m ρ c)
theorem V5_arg8 : V5 m ρ c main_arg8 = (m ((c : Thread nD τ).loc main_arg8)) := (Host.s2_arg8 (W4 m ρ c)).trans (W4_arg8 m ρ c)
theorem V5_arg9 : V5 m ρ c main_arg9 = (m ((c : Thread nD τ).loc main_arg9)) := (Host.s2_arg9 (W4 m ρ c)).trans (W4_arg9 m ρ c)
theorem V5_v47 : V5 m ρ c main_v47 = shapeCast S1x64 (m ((c : Thread nD τ).loc main_arg10)) shapeCasts_S64_S1x64 :=
  (Host.s2_v47 (W4 m ρ c)).trans (by rw [W4_arg10 m ρ c])

/-! ## The result -/

/-- The result buffer after the run: the three layers of the arguments as launched. -/
theorem W6_v48 : W6 m ρ c (Proc.devRef .tc main_v48)
    = Host.out (m ((c : Thread nD τ).loc main_arg1)) (m ((c : Thread nD τ).loc main_arg0)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) := by
  refine (W6_arr m ρ c 6).trans ((Region2.final (V5 m ρ) c).trans ?_)
  show MeanCombine.combine (A := 100000) (K := 128) (M := 64) (V5 m ρ c main_v36) (V5 m ρ c main_v46) (V5 m ρ c main_v12)
    (V5 m ρ c main_arg8) (V5 m ρ c main_arg9) (V5 m ρ c main_v47) = _
  rw [V5_v36 m ρ c, V5_v46 m ρ c, V5_v12 m ρ c, V5_arg8 m ρ c, V5_arg9 m ρ c, V5_v47 m ρ c]
  rfl

end Cert.KernelIdeal.Result

end
-- ==== Proof.RefValue.lean ====
/-
  The reference's result, as the same function of the argument arrays as the kernel's.
  The reference is one host program: per layer a gather along the edges' source row and a scatter-add along their
  destination row (the kernel's own host operations, `Host.agg`), the product of those sums with the reciprocal-degree
  vector lifted to a column and across the columns, two `dot_general`s added, the bias lifted to a row and down the rows,
  and for the first two layers the maximum with the zero array. Its run's term is those three layers nested (`res_eq_host`,
  by unfolding); one layer in this spelling is the layer `Σ_k X(r,k)·Ws(k,j) + Σ_k (Ag(r,k)·d(r))·Wn(k,j) + b(j)` of
  `MeanCombine.host_eq`, entry by entry, and the maximum with the zero array is the rectifier.
-/
import proofs.«161846_j61761629716974_1_alg».proof.Proof.Gen.ReferenceIdeal.Run
import proofs.«161846_j61761629716974_1_alg».proof.Proof.Spec

set_option maxRecDepth 16384

noncomputable section

namespace Cert.ReferenceIdeal.RefValue

open Cert.ReferenceIdeal Cert.ReferenceIdeal.Gen
open Idealize.ShloMosaic Idealize.ShloMosaic.TcCoe Idealize.SL.Sem

/-- One layer before the rectifier in the reference's spelling, 128 features out. -/
def hostLayer128 (e : IVec S2x1600000 32) (X : FVec Ideal S100000x128 .f32) (Ws Wn : FVec Ideal S128x128 .f32) (b : FVec Ideal S128 .f32) :
    FVec Ideal S100000x128 .f32 :=
  addf (addf (Host.dotGeneral dot_S100000x128_S128x128_S100000x128_1_0_0_1_n_n none X Ws)
      (Host.dotGeneral dot_S100000x128_S128x128_S100000x128_1_0_0_1_n_n none
        (mulf (Cert.KernelIdeal.Host.agg (Cert.KernelIdeal.Host.src e) (Cert.KernelIdeal.Host.dst e) X)
          (broadcastInDim S100000x128 ![0, 1] bcast_S100000x1_S100000x128_0_1
            (broadcastInDim S100000x1 ![0] bcast_S100000_S100000x1_0 (Cert.KernelIdeal.Host.invDeg (Cert.KernelIdeal.Host.dst e))))) Wn))
    (broadcastInDim S100000x128 ![0, 1] bcast_S1x128_S100000x128_0_1 (broadcastInDim S1x128 ![1] bcast_S128_S1x128_1 b))

/-- The last layer in the reference's spelling, 64 features out. -/
def hostLayer64 (e : IVec S2x1600000 32) (X : FVec Ideal S100000x128 .f32) (Ws Wn : FVec Ideal S128x64 .f32) (b : FVec Ideal S64 .f32) :
    FVec Ideal S100000x64 .f32 :=
  addf (addf (Host.dotGeneral dot_S100000x128_S128x64_S100000x64_1_0_0_1_n_n none X Ws)
      (Host.dotGeneral dot_S100000x128_S128x64_S100000x64_1_0_0_1_n_n none
        (mulf (Cert.KernelIdeal.Host.agg (Cert.KernelIdeal.Host.src e) (Cert.KernelIdeal.Host.dst e) X)
          (broadcastInDim S100000x128 ![0, 1] bcast_S100000x1_S100000x128_0_1
            (broadcastInDim S100000x1 ![0] bcast_S100000_S100000x1_0 (Cert.KernelIdeal.Host.invDeg (Cert.KernelIdeal.Host.dst e))))) Wn))
    (broadcastInDim S100000x64 ![0, 1] bcast_S1x64_S100000x64_0_1 (broadcastInDim S1x64 ![1] bcast_S64_S1x64_1 b))

/-- The reference's rectifier: the maximum with the zero array. -/
def hostRelu (Y : FVec Ideal S100000x128 .f32) : FVec Ideal S100000x128 .f32 :=
  maximumf Y (broadcastInDim S100000x128 ![] bcast_S_S100000x128 (constant (F := Ideal) S_ .f32 0x00000000#32))

/-- The run's term is the three layers nested. -/
theorem res_eq_host (m : (ℓ : Loc nD τ sig) → Buf (Elt Ideal) ℓ) (c : Dev nD) :
    Value.res_main_v68 (F := Ideal) m c
      = hostLayer64 (m ((c.tc : Thread nD τ).loc main_arg1))
          (hostRelu (hostLayer128 (m ((c.tc : Thread nD τ).loc main_arg1))
            (hostRelu (hostLayer128 (m ((c.tc : Thread nD τ).loc main_arg1)) (m ((c.tc : Thread nD τ).loc main_arg0)) (m ((c.tc : Thread nD τ).loc main_arg2)) (m ((c.tc : Thread nD τ).loc main_arg3)) (m ((c.tc : Thread nD τ).loc main_arg4))))
            (m ((c.tc : Thread nD τ).loc main_arg5)) (m ((c.tc : Thread nD τ).loc main_arg6)) (m ((c.tc : Thread nD τ).loc main_arg7))))
          (m ((c.tc : Thread nD τ).loc main_arg8)) (m ((c.tc : Thread nD τ).loc main_arg9)) (m ((c.tc : Thread nD τ).loc main_arg10)) := by
  unfold Value.res_main_v68
  rfl

/-- A rectified layer in the reference's spelling is the rectified layer. -/
theorem layerRelu_eq (e : IVec S2x1600000 32) (X : FVec Ideal S100000x128 .f32) (Ws Wn : FVec Ideal S128x128 .f32) (b : FVec Ideal S128 .f32) :
    hostRelu (hostLayer128 e X Ws Wn b) = Cert.KernelIdeal.Host.layerRelu (Cert.KernelIdeal.Host.src e) (Cert.KernelIdeal.Host.dst e) X Ws Wn b := by
  have h : hostLayer128 e X Ws Wn b
      = MeanCombine.combine (A := 100000) (K := 128) (M := 128) X (Cert.KernelIdeal.Host.agg (Cert.KernelIdeal.Host.src e) (Cert.KernelIdeal.Host.dst e) X) (Cert.KernelIdeal.Host.degCol (Cert.KernelIdeal.Host.dst e)) Ws Wn
          (shapeCast Cert.KernelIdeal.S1x128 b Cert.KernelIdeal.Gen.shapeCasts_S128_S1x128) :=
    MeanCombine.host_eq (A := 100000) (K := 128) (M := 128) X (Cert.KernelIdeal.Host.agg (Cert.KernelIdeal.Host.src e) (Cert.KernelIdeal.Host.dst e) X) (Cert.KernelIdeal.Host.invDeg (Cert.KernelIdeal.Host.dst e)) Ws Wn b
      bcast_S100000_S100000x1_0 bcast_S100000x1_S100000x128_0_1 bcast_S128_S1x128_1 bcast_S1x128_S100000x128_0_1
      Cert.KernelIdeal.Gen.shapeCasts_S100000_S100000x1 Cert.KernelIdeal.Gen.shapeCasts_S128_S1x128
  rw [h]
  rfl

/-- The last layer in the reference's spelling is the last layer. -/
theorem layerLin_eq (e : IVec S2x1600000 32) (X : FVec Ideal S100000x128 .f32) (Ws Wn : FVec Ideal S128x64 .f32) (b : FVec Ideal S64 .f32) :
    hostLayer64 e X Ws Wn b = Cert.KernelIdeal.Host.layerLin (Cert.KernelIdeal.Host.src e) (Cert.KernelIdeal.Host.dst e) X Ws Wn b :=
  MeanCombine.host_eq (A := 100000) (K := 128) (M := 64) X (Cert.KernelIdeal.Host.agg (Cert.KernelIdeal.Host.src e) (Cert.KernelIdeal.Host.dst e) X) (Cert.KernelIdeal.Host.invDeg (Cert.KernelIdeal.Host.dst e)) Ws Wn b
    bcast_S100000_S100000x1_0 bcast_S100000x1_S100000x128_0_1 bcast_S64_S1x64_1 bcast_S1x64_S100000x64_0_1
    Cert.KernelIdeal.Gen.shapeCasts_S100000_S100000x1 Cert.KernelIdeal.Gen.shapeCasts_S64_S1x64

/-- The reference's result is the three layers in sequence of its argument arrays. -/
theorem ref_eq (m : (ℓ : Loc nD τ sig) → Buf (Elt Ideal) ℓ) (c : Dev nD) :
    Value.res_main_v68 (F := Ideal) m c
      = Cert.KernelIdeal.Host.out (m ((c.tc : Thread nD τ).loc main_arg1)) (m ((c.tc : Thread nD τ).loc main_arg0)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) := by
  refine (res_eq_host m c).trans ?_
  rw [layerRelu_eq, layerRelu_eq, layerLin_eq]
  rfl

end Cert.ReferenceIdeal.RefValue

end
-- ==== Proof.lean ====
/-
  Three-layer GraphSAGE with mean aggregation, 100000 nodes and 1600000 edges: a kernel that runs each layer's dense
  combination as a row-tiled pallas_call (50 blocks of 2000 nodes) between host gathers and scatter-adds, against a
  reference that is one host program. Over the extended reals both compute, layer by layer,

      out(r, j) = Σ_k X(r,k)·W_self(k,j) + Σ_k (Ag(r,k)·d(r))·W_neigh(k,j) + b(j),      (the first two layers rectified)

  with `Ag` the neighbour sums of `X` along the edges and `d(r) = 1 / max(in-degree(r), 1)`. The two programs spell the
  sums, products and additions in the same order (rounding to bf16 is the identity on the extended reals, a matrix-unit
  product into a zero accumulator is the `dot_general`'s sum, a broadcast column or row is read at its one coordinate), and
  an entry of a layer reads one row of the row-tiled operands, so the kernel's 50 blocks are the blocks of the whole-array
  layer. No distributivity or cancellation is used: the precondition (finite inputs) is never opened.
  The frames of the two kernels are the generated frame certificates; the reference's frame is its run with the result
  dropped; the idealization rewrote nothing, so `preserves` is trivial.
-/
import proofs.«161846_j61761629716974_1_alg».proof.Defs
import proofs.«161846_j61761629716974_1_alg».proof.Proof.Gen.Kernel
import proofs.«161846_j61761629716974_1_alg».proof.Proof.Gen.KernelIdeal
import proofs.«161846_j61761629716974_1_alg».proof.Proof.Gen.ReferenceIdeal
import proofs.«161846_j61761629716974_1_alg».proof.Proof.Gen.ReferenceIdeal.Run
import proofs.«161846_j61761629716974_1_alg».proof.Proof.Gen.Pre_finite_inputs
import proofs.«161846_j61761629716974_1_alg».proof.Proof.FrameKernelP
import proofs.«161846_j61761629716974_1_alg».proof.Proof.FrameKernelIdealP
import proofs.«161846_j61761629716974_1_alg».proof.Proof.KernelRun
import proofs.«161846_j61761629716974_1_alg».proof.Proof.KernelValue
import proofs.«161846_j61761629716974_1_alg».proof.Proof.RefValue
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ

theorem frame_ki : Cert.frame_KernelIdeal := fun m ρ _ => Cert.KernelIdeal.Gen.frame m ρ

/-- The reference's run terminates with its arguments unchanged: its generated run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The ideal pass rewrote no operation. -/
theorem preserves : Cert.preserves_Kernel_KernelIdeal := trivial

/-- Both programs end with the three layers in sequence of the argument arrays: the kernel's result buffer read back through
    its run's boundaries (`Result.W6_v48`), the reference's run term re-indexed (`RefValue.ref_eq`), the arguments agreeing. -/
theorem algebraic : Cert.algebraic_KernelIdeal_ReferenceIdeal := by
  intro m ρ m' ρ' _ hagree
  refine ⟨fun c => Cert.KernelIdeal.Host.out (m ((c.tc : Thread Cert.KernelIdeal.nD Cert.KernelIdeal.τ).loc Cert.KernelIdeal.main_arg1)) (m ((c.tc : Thread Cert.KernelIdeal.nD Cert.KernelIdeal.τ).loc Cert.KernelIdeal.main_arg0)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))
    (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)), ?_, ?_⟩
  · exact (θ_run Cert.KernelIdeal.defs _ _).mono (fun r h c => ⟨(h c).1.trans (Cert.KernelIdeal.Result.W6_v48 m ρ c), (h c).2⟩)
      (Cert.KernelIdeal.Run.run (F := Ideal) m ρ)
  · refine (θ_run Cert.ReferenceIdeal.defs _ _).mono (fun _ h c => ⟨(h c).1.trans ?_, (h c).2⟩)
      (Cert.ReferenceIdeal.Value.run (F := Ideal) m' ρ')
    obtain ⟨h0, h1, h2, h3, h4, h5, h6, h7, h8, h9, h10⟩ := hagree c
    rw [Cert.ReferenceIdeal.RefValue.ref_eq, h0, h1, h2, h3, h4, h5, h6, h7, h8, h9, h10]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
